-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S6 .f32) (main_v33 : IVec S_ 1) : IVec S_ 1 :=
  let main_v34 : FVec F S6 .f32 := Host.absf main_arg7
  let main_cst_12 : FVec F S_ .f32 := constant S_ .f32 0x7F800000#32
  let main_v35 : FVec F S6 .f32 := broadcastInDim S6 ![] bcast_S_S6 main_cst_12
  let main_v36 : IVec S6 1 := cmpf .olt main_v34 main_v35
  let main_c_13 : IVec S_ 1 := constantI S_ 1 1#1
  let main_v37 : IVec S_ 1 := (fun x v => Host.reduce IntOp.andi x v reducesTo_S6_S_d0 h_S_) main_v36 main_c_13
  let main_v38 : IVec S_ 1 := andi main_v33 main_v37
  main_v38

def fn_part1 {F : FTy → Type} [FloatOps F] (main_arg4 : FVec F S128 .f32) (main_arg5 : FVec F S4x128 .f32) (main_arg6 : FVec F S256x6 .f32) (main_arg7 : FVec F S6 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S256x6 .f32 := Host.absf main_arg6
  let main_cst_10 : FVec F S_ .f32 := constant S_ .f32 0x7F800000#32
  let main_v30 : FVec F S256x6 .f32 := broadcastInDim S256x6 ![] bcast_S_S256x6 main_cst_10
  let main_v31 : IVec S256x6 1 := cmpf .olt main_v29 main_v30
  let main_c_11 : IVec S_ 1 := constantI S_ 1 1#1
  let main_v32 : IVec S_ 1 := (fun x v => Host.reduce IntOp.andi x v reducesTo_S256x6_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S128x256 .f32) (main_arg2 : FVec F S256 .f32) (main_arg3 : FVec F S256x128 .f32) (main_arg4 : FVec F S128 .f32) (main_arg5 : FVec F S4x128 .f32) (main_arg6 : FVec F S256x6 .f32) (main_arg7 : FVec F S6 .f32) (main_arg8 : IVec S2097152 32) (main_arg9 : IVec S2097152 32) (main_arg10 : IVec S2048 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_v13 main_v16
-- ==== Kernel.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S2097152x128 : Shape := ⟨2, ![2097152, 128]⟩
abbrev S1x256 : Shape := ⟨2, ![1, 256]⟩
abbrev S262144x256 : Shape := ⟨2, ![262144, 256]⟩
abbrev S4096x128 : Shape := ⟨2, ![4096, 128]⟩
abbrev S4096x1 : Shape := ⟨2, ![4096, 1]⟩
abbrev S4096x256 : Shape := ⟨2, ![4096, 256]⟩
abbrev S2048x128x128 : Shape := ⟨3, ![2048, 128, 128]⟩
abbrev S2048x128 : Shape := ⟨2, ![2048, 128]⟩
abbrev S2048x1 : Shape := ⟨2, ![2048, 1]⟩
abbrev S128x6 : Shape := ⟨2, ![128, 6]⟩
abbrev S1x6 : Shape := ⟨2, ![1, 6]⟩
abbrev S1x128 : Shape := ⟨2, ![1, 128]⟩
abbrev S2048x6 : Shape := ⟨2, ![2048, 6]⟩
abbrev S128x128x128 : Shape := ⟨3, ![128, 128, 128]⟩
abbrev S128x128 : Shape := ⟨2, ![128, 128]⟩
abbrev S128x128x1 : Shape := ⟨3, ![128, 128, 1]⟩

abbrev nBuf : Space → Nat
  | .hbm => 94
  | .vmem => 27
  | .smem => 0
  | _ => 0

abbrev bufTy : (tb : Table) → Fin (tcTables nBuf tb) → BufTy
  | .hbm, ⟨0, _⟩ => ⟨S262144x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S4x128, .f32⟩
  | .hbm, ⟨6, _⟩ => ⟨S256x6, .f32⟩
  | .hbm, ⟨7, _⟩ => ⟨S6, .f32⟩
  | .hbm, ⟨8, _⟩ => ⟨S2097152, .i32⟩
  | .hbm, ⟨9, _⟩ => ⟨S2097152, .i32⟩
  | .hbm, ⟨10, _⟩ => ⟨S2048, .i32⟩
  | .hbm, ⟨11, _⟩ => ⟨S_, .f32⟩
  | .hbm, ⟨12, _⟩ => ⟨S2097152, .f32⟩
  | .hbm, ⟨13, _⟩ => ⟨S_, .f32⟩
  | .hbm, ⟨14, _⟩ => ⟨S262144, .f32⟩
  | .hbm, ⟨15, _⟩ => ⟨S2097152x1, .i32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S2097152x1, .i32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .i1⟩
  | .hbm, ⟨24, _⟩ => ⟨S_, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S262144x128, .bf16⟩
  | .hbm, ⟨45, _⟩ => ⟨S_, .i32⟩
  | .hbm, ⟨46, _⟩ => ⟨S2097152, .i32⟩
  | .hbm, ⟨47, _⟩ => ⟨S2097152, .i1⟩
  | .hbm, ⟨48, _⟩ => ⟨S_, .i32⟩
  | .hbm, ⟨49, _⟩ => ⟨S2097152, .i32⟩
  | .hbm, ⟨50, _⟩ => ⟨S2097152, .i32⟩
  | .hbm, ⟨51, _⟩ => ⟨S2097152, .i32⟩
  | .hbm, ⟨52, _⟩ => ⟨S2097152x1, .i32⟩
  | .hbm, ⟨53, _⟩ => ⟨S2097152x128, .bf16⟩
  | .hbm, ⟨54, _⟩ => ⟨S2097152x128, .f32⟩
  | .hbm, ⟨55, _⟩ => ⟨S_, .f32⟩
  | .hbm, ⟨56, _⟩ => ⟨S262144x128, .f32⟩
  | .hbm, ⟨57, _⟩ => ⟨S2097152x1, .i32⟩
  | .hbm, ⟨58, _⟩ => ⟨S262144x128, .f32⟩
  | .hbm, ⟨59, _⟩ => ⟨S262144x1, .f32⟩
  | .hbm, ⟨60, _⟩ => ⟨S262144x1, .f32⟩
  | .hbm, ⟨61, _⟩ => ⟨S1x256, .f32⟩
  | .hbm, ⟨62, _⟩ => ⟨S262144x256, .bf16⟩
  | .hbm, ⟨63, _⟩ => ⟨S262144x128, .bf16⟩
  | .hbm, ⟨64, _⟩ => ⟨S_, .i32⟩
  | .hbm, ⟨65, _⟩ => ⟨S2097152, .i32⟩
  | .hbm, ⟨66, _⟩ => ⟨S2097152, .i1⟩
  | .hbm, ⟨67, _⟩ => ⟨S_, .i32⟩
  | .hbm, ⟨68, _⟩ => ⟨S2097152, .i32⟩
  | .hbm, ⟨69, _⟩ => ⟨S2097152, .i32⟩
  | .hbm, ⟨70, _⟩ => ⟨S2097152, .i32⟩
  | .hbm, ⟨71, _⟩ => ⟨S2097152x1, .i32⟩
  | .hbm, ⟨72, _⟩ => ⟨S2097152x128, .bf16⟩
  | .hbm, ⟨73, _⟩ => ⟨S2097152x128, .f32⟩
  | .hbm, ⟨74, _⟩ => ⟨S_, .f32⟩
  | .hbm, ⟨75, _⟩ => ⟨S262144x128, .f32⟩
  | .hbm, ⟨76, _⟩ => ⟨S2097152x1, .i32⟩
  | .hbm, ⟨77, _⟩ => ⟨S262144x128, .f32⟩
  | .hbm, ⟨78, _⟩ => ⟨S2048x128x128, .f32⟩
  | .hbm, ⟨79, _⟩ => ⟨S2048x128, .f32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S2048x1, .i32⟩
  | .hbm, ⟨88, _⟩ => ⟨S2048x128, .f32⟩
  | .hbm, ⟨89, _⟩ => ⟨S128x6, .f32⟩
  | .hbm, ⟨90, _⟩ => ⟨S128x6, .f32⟩
  | .hbm, ⟨91, _⟩ => ⟨S1x6, .f32⟩
  | .hbm, ⟨92, _⟩ => ⟨S1x128, .f32⟩
  | .hbm, ⟨93, _⟩ => ⟨S2048x6, .f32⟩
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S128x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x1, .f32⟩
  | .local _ .vmem, ⟨11, _⟩ => ⟨S4096x1, .f32⟩
  | .local _ .vmem, ⟨12, _⟩ => ⟨S256x128, .f32⟩
  | .local _ .vmem, ⟨13, _⟩ => ⟨S4096x128, .bf16⟩
  | .local _ .vmem, ⟨14, _⟩ => ⟨S4096x128, .bf16⟩
  | .local _ .vmem, ⟨15, _⟩ => ⟨S128x128x128, .f32⟩
  | .local _ .vmem, ⟨16, _⟩ => ⟨S128x128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x6, .f32⟩
  | .local _ .vmem, ⟨22, _⟩ => ⟨S128x6, .f32⟩
  | .local _ .vmem, ⟨23, _⟩ => ⟨S1x6, .f32⟩
  | .local _ .vmem, ⟨24, _⟩ => ⟨S1x128, .f32⟩
  | .local _ .vmem, ⟨25, _⟩ => ⟨S128x6, .f32⟩
  | .local _ .vmem, ⟨26, _⟩ => ⟨S128x6, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_v21 : Ref sig .tc := ⟨.hbm, 46, rfl⟩
abbrev main_v22 : Ref sig .tc := ⟨.hbm, 47, rfl⟩
abbrev main_c_8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x6 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bitsLt_bf16_f32 : FTy.bits .bf16 < FTy.bits .f32
  bcast_S_S262144x128 : S_.BroadcastsInDim S262144x128 (![] : Fin 0 → Fin S262144x128.rank)
  shapeCasts_S262144_S262144x1 : S262144.ShapeCasts S262144x1
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  packedbf16_S4096x128_S4096x128_0_0 : (Rect.unit (s := S4096x128) ![0, 0] S4096x128.size inb_S4096x128_S4096x128_0_0).PackedRows (EltTy.packing .bf16)
  shapeCasts_S262144x128_S2048x128x128 : S262144x128.ShapeCasts S2048x128x128
  shapeCasts_S262144_S2048x128 : S262144.ShapeCasts S2048x128
  bcast_S_S2048 : S_.BroadcastsInDim S2048 (![] : Fin 0 → Fin S2048.rank)
  bcast_S2048_S2048x1_0 : S2048.BroadcastsInDim S2048x1 (![0] : Fin 1 → Fin S2048x1.rank)
  slices_S256x6_S128x6_0_0 : S256x6.Slices ![0, 0] S128x6
  slices_S256x6_S128x6_128_0 : S256x6.Slices ![128, 0] S128x6
  shapeCasts_S6_S1x6 : S6.ShapeCasts S1x6
  shapeCasts_S128_S1x128 : S128.ShapeCasts S1x128
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  broadcasts_S128x128x1_S128x128x128 : S128x128x1.Broadcasts S128x128x128
  reduces_S128x128x128_S128x128 : S128x128x128.Reduces [1] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S128x6 : S1x6.Broadcasts S128x6
  scatter_S262144_S2097152x1_S2097152_n_0_0_1_wf : ScatterDims.WF S262144 S2097152x1 S2097152 [] [0] [0] 1
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  gather_S4x128_S2048x1_S2048x128_1_0_n_n_0_1_1128_wf : GatherDims.WF S4x128 S2048x1 S2048x128 [1] [0] [] [0] [] 1 ![1, 128]
  dot_S128x128_S128x6_S128x6_1_0_0_1_n_n_wf : DotDims.WF S128x128 S128x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S262144x256.size a
  hwx0_4 : ∀ i : grid0.Coords, EltTy.bits .bf16 = 32 ∨ (Rect.block (s := S262144x256) S4096x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .bf16 = 32 ∨ (Rect.block (s := S262144x256) S4096x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .f32 = 32 ∨ (Rect.block (s := S262144x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S262144x128.size a
  hwx1_3 : ∀ i : grid1.Coords, EltTy.bits .bf16 = 32 ∨ (Rect.block (s := S262144x128) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128x128.size a ≤ S2048x128x128.size a
  hwx2_0 : ∀ i : grid2.Coords, EltTy.bits .f32 = 32 ∨ (Rect.block (s := S2048x128x128) S128x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S2048x128.size a
  hwx2_1 : ∀ i : grid2.Coords, EltTy.bits .f32 = 32 ∨ (Rect.block (s := S2048x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S2048x128.size a
  hwx2_2 : ∀ i : grid2.Coords, EltTy.bits .f32 = 32 ∨ (Rect.block (s := S2048x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x6.size a ≤ S128x6.size a
  hwx2_3 : ∀ i : grid2.Coords, EltTy.bits .f32 = 32 ∨ (Rect.block (s := S128x6) S128x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x6.size a ≤ S128x6.size a
  hwx2_4 : ∀ i : grid2.Coords, EltTy.bits .f32 = 32 ∨ (Rect.block (s := S128x6) S128x6.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x6.size a ≤ S1x6.size a
  hwx2_5 : ∀ i : grid2.Coords, EltTy.bits .f32 = 32 ∨ (Rect.block (s := S1x6) S1x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x6.size a ≤ S2048x6.size a
  hwx2_7 : ∀ i : grid2.Coords, EltTy.bits .f32 = 32 ∨ (Rect.block (s := S2048x6) S128x6.size (cc2_transform_7 i) (hinb2_7 i)).WholeWords (EltTy.packing .f32)

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4x128_S2048x1_S2048x128_1_0_n_n_0_1_1128 : GatherDims S4x128 S2048x1 S2048x128 where
  offsetDims := [1]
  collapsedSliceDims := [0]
  operandBatchingDims := []
  startIndicesBatchingDims := []
  startIndexMap := [0]
  indexVectorDim := 1
  sliceSizes := ![1, 128]
  wf := gather_S4x128_S2048x1_S2048x128_1_0_n_n_0_1_1128_wf
def dot_S128x128_S128x6_S128x6_1_0_0_1_n_n : DotDims S128x128 S128x6 S128x6 where
  lhsContracting := [1]
  rhsContracting := [0]
  lhsNonContracting := [0]
  rhsNonContracting := [1]
  lhsBatch := []
  rhsBatch := []
  wf := dot_S128x128_S128x6_S128x6_1_0_0_1_n_n_wf

abbrev win0_0 : Pipeline.Window sig grid0 :=
  Pipeline.Window.ofSpec (Memref.whole main_v31) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S128x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S128x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x6.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x6.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S128x6.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S262144x128 : Shape := ⟨2, ![262144, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S4x128 : Shape := ⟨2, ![4, 128]⟩
abbrev S256x6 : Shape := ⟨2, ![256, 6]⟩
abbrev S6 : Shape := ⟨1, ![6]⟩
abbrev S2097152 : Shape := ⟨1, ![2097152]⟩
abbrev S2048 : Shape := ⟨1, ![2048]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S2097152x128 : Shape := ⟨2, ![2097152, 128]⟩
abbrev S262144x256 : Shape := ⟨2, ![262144, 256]⟩
abbrev S1x256 : Shape := ⟨2, ![1, 256]⟩
abbrev S1x128 : Shape := ⟨2, ![1, 128]⟩
abbrev S2048x128x128 : Shape := ⟨3, ![2048, 128, 128]⟩
abbrev S2048x128 : Shape := ⟨2, ![2048, 128]⟩
abbrev S2048x1 : Shape := ⟨2, ![2048, 1]⟩
abbrev S2048x256 : Shape := ⟨2, ![2048, 256]⟩
abbrev S2048x6 : Shape := ⟨2, ![2048, 6]⟩
abbrev S1x6 : Shape := ⟨2, ![1, 6]⟩

abbrev nBuf : Space → Nat
  | .hbm => 110
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S4x128, .f32⟩
  | .hbm, ⟨6, _⟩ => ⟨S256x6, .f32⟩
  | .hbm, ⟨7, _⟩ => ⟨S6, .f32⟩
  | .hbm, ⟨8, _⟩ => ⟨S2097152, .i32⟩
  | .hbm, ⟨9, _⟩ => ⟨S2097152, .i32⟩
  | .hbm, ⟨10, _⟩ => ⟨S2048, .i32⟩
  | .hbm, ⟨11, _⟩ => ⟨S_, .f32⟩
  | .hbm, ⟨12, _⟩ => ⟨S2097152, .f32⟩
  | .hbm, ⟨13, _⟩ => ⟨S_, .f32⟩
  | .hbm, ⟨14, _⟩ => ⟨S262144, .f32⟩
  | .hbm, ⟨15, _⟩ => ⟨S2097152x1, .i32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S2097152x1, .i32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .i1⟩
  | .hbm, ⟨24, _⟩ => ⟨S_, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S262144x128, .f32⟩
  | .hbm, ⟨43, _⟩ => ⟨S262144x128, .f32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x128, .f32⟩
  | .hbm, ⟨53, _⟩ => ⟨S_, .f32⟩
  | .hbm, ⟨54, _⟩ => ⟨S262144x128, .f32⟩
  | .hbm, ⟨55, _⟩ => ⟨S2097152x1, .i32⟩
  | .hbm, ⟨56, _⟩ => ⟨S262144x128, .f32⟩
  | .hbm, ⟨57, _⟩ => ⟨S262144x1, .f32⟩
  | .hbm, ⟨58, _⟩ => ⟨S262144x128, .f32⟩
  | .hbm, ⟨59, _⟩ => ⟨S262144x128, .f32⟩
  | .hbm, ⟨60, _⟩ => ⟨S262144x256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S_, .f32⟩
  | .hbm, ⟨65, _⟩ => ⟨S262144x256, .f32⟩
  | .hbm, ⟨66, _⟩ => ⟨S262144x256, .f32⟩
  | .hbm, ⟨67, _⟩ => ⟨S262144x128, .f32⟩
  | .hbm, ⟨68, _⟩ => ⟨S262144x1, .f32⟩
  | .hbm, ⟨69, _⟩ => ⟨S262144x128, .f32⟩
  | .hbm, ⟨70, _⟩ => ⟨S262144x128, .f32⟩
  | .hbm, ⟨71, _⟩ => ⟨S_, .i32⟩
  | .hbm, ⟨72, _⟩ => ⟨S2097152, .i32⟩
  | .hbm, ⟨73, _⟩ => ⟨S2097152, .i1⟩
  | .hbm, ⟨74, _⟩ => ⟨S_, .i32⟩
  | .hbm, ⟨75, _⟩ => ⟨S2097152, .i32⟩
  | .hbm, ⟨76, _⟩ => ⟨S2097152, .i32⟩
  | .hbm, ⟨77, _⟩ => ⟨S2097152, .i32⟩
  | .hbm, ⟨78, _⟩ => ⟨S2097152x1, .i32⟩
  | .hbm, ⟨79, _⟩ => ⟨S2097152x128, .f32⟩
  | .hbm, ⟨80, _⟩ => ⟨S_, .f32⟩
  | .hbm, ⟨81, _⟩ => ⟨S262144x128, .f32⟩
  | .hbm, ⟨82, _⟩ => ⟨S2097152x1, .i32⟩
  | .hbm, ⟨83, _⟩ => ⟨S262144x128, .f32⟩
  | .hbm, ⟨84, _⟩ => ⟨S262144x1, .f32⟩
  | .hbm, ⟨85, _⟩ => ⟨S262144x128, .f32⟩
  | .hbm, ⟨86, _⟩ => ⟨S262144x128, .f32⟩
  | .hbm, ⟨87, _⟩ => ⟨S1x128, .f32⟩
  | .hbm, ⟨88, _⟩ => ⟨S262144x128, .f32⟩
  | .hbm, ⟨89, _⟩ => ⟨S262144x128, .f32⟩
  | .hbm, ⟨90, _⟩ => ⟨S2048x128x128, .f32⟩
  | .hbm, ⟨91, _⟩ => ⟨S_, .f32⟩
  | .hbm, ⟨92, _⟩ => ⟨S2048x128, .f32⟩
  | .hbm, ⟨93, _⟩ => ⟨S_, .f32⟩
  | .hbm, ⟨94, _⟩ => ⟨S2048x128, .f32⟩
  | .hbm, ⟨95, _⟩ => ⟨S2048x128, .f32⟩
  | .hbm, ⟨96, _⟩ => ⟨S_, .i32⟩
  | .hbm, ⟨97, _⟩ => ⟨S2048, .i32⟩
  | .hbm, ⟨98, _⟩ => ⟨S2048, .i1⟩
  | .hbm, ⟨99, _⟩ => ⟨S_, .i32⟩
  | .hbm, ⟨100, _⟩ => ⟨S2048, .i32⟩
  | .hbm, ⟨101, _⟩ => ⟨S2048, .i32⟩
  | .hbm, ⟨102, _⟩ => ⟨S2048, .i32⟩
  | .hbm, ⟨103, _⟩ => ⟨S2048x1, .i32⟩
  | .hbm, ⟨104, _⟩ => ⟨S2048x128, .f32⟩
  | .hbm, ⟨105, _⟩ => ⟨S2048x256, .f32⟩
  | .hbm, ⟨106, _⟩ => ⟨S2048x6, .f32⟩
  | .hbm, ⟨107, _⟩ => ⟨S1x6, .f32⟩
  | .hbm, ⟨108, _⟩ => ⟨S2048x6, .f32⟩
  | .hbm, ⟨109, _⟩ => ⟨S2048x6, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_7 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S262144x128_S2048x128x128 : S262144x128.ShapeCasts S2048x128x128
  reducesTo_S2048x128x128_S2048x128_d1 : S2048x128x128.ReducesTo [1] S2048x128
  h_S_ : 0 < S_.numel
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x128_S2048x128_S2048x256_d1 : Shape.Concatenates [S2048x128, S2048x128] S2048x256 1
  bcast_S6_S1x6_1 : S6.BroadcastsInDim S1x6 (![1] : Fin 1 → Fin S1x6.rank)
  bcast_S1x6_S2048x6_0_1 : S1x6.BroadcastsInDim S2048x6 (![0, 1] : Fin 2 → Fin S2048x6.rank)
  scatter_S262144_S2097152x1_S2097152_n_0_0_1_wf : ScatterDims.WF S262144 S2097152x1 S2097152 [] [0] [0] 1
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S262144x128_S128x256_S262144x256_1_0_0_1_n_n_wf : DotDims.WF S262144x128 S128x256 S262144x256 [1] [0] [0] [1] [] []
  dot_S262144x256_S256x128_S262144x128_1_0_0_1_n_n_wf : DotDims.WF S262144x256 S256x128 S262144x128 [1] [0] [0] [1] [] []
  gather_S4x128_S2048x1_S2048x128_1_0_n_n_0_1_1128_wf : GatherDims.WF S4x128 S2048x1 S2048x128 [1] [0] [] [0] [] 1 ![1, 128]
  dot_S2048x256_S256x6_S2048x6_1_0_0_1_n_n_wf : DotDims.WF S2048x256 S256x6 S2048x6 [1] [0] [0] [1] [] []

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def gather_S4x128_S2048x1_S2048x128_1_0_n_n_0_1_1128 : GatherDims S4x128 S2048x1 S2048x128 where
  offsetDims := [1]
  collapsedSliceDims := [0]
  operandBatchingDims := []
  startIndicesBatchingDims := []
  startIndexMap := [0]
  indexVectorDim := 1
  sliceSizes := ![1, 128]
  wf := gather_S4x128_S2048x1_S2048x128_1_0_n_n_0_1_1128_wf
def dot_S2048x256_S256x6_S2048x6_1_0_0_1_n_n : DotDims S2048x256 S256x6 S2048x6 where
  lhsContracting := [1]
  rhsContracting := [0]
  lhsNonContracting := [0]
  rhsNonContracting := [1]
  lhsBatch := []
  rhsBatch := []
  wf := dot_S2048x256_S256x6_S2048x6_1_0_0_1_n_n_wf

class Facts : Prop extends Facts₀ where

variable [Facts]
-- ==== Proof.KernelRun.lean ====
/-
  The idealized kernel program's run with its result named.

  The program is a chain of nine segments: five stretches of host operations (the two degree counts and the two scales
  `c_out`, `c_in`, the first aggregation), the first projection kernel, the second projection kernel, a stretch of host
  operations (the second aggregation, the organism rows, the two halves of the classifier matrix), and the pooling and
  classifying kernel. Every segment leaves every unscoped buffer at a known valuation; the last of these valuations, read
  at the result buffer, is what the program returns, and read at an argument it is the argument as launched.
-/
import proofs.«179322_j24756191494756_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    valuation and every argument as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Result

end
-- ==== Proof.HostStages.lean ====
/-
  The host operations of the idealized kernel program, one stretch at a time, against the reference's stages.

  The program's host operations come in six stretches (the calls of a small choice function are stretches of their
  own). For each stretch and each buffer it writes that a later reader needs, the buffer after the stretch — from ANY
  contents of the buffers before it that agree with the reference's earlier stages — holds the reference's stage of
  the same arguments: the two degree counts (scatter-adds of ones), the two choices "the degree where positive, one
  elsewhere", the two scales (the choice to the power -1/2), the first aggregation (features times out-scale,
  gathered at the edges' sources, added up at their destinations), and, after the second kernel, the second
  aggregation of that kernel's output, the organism rows, the halves of the classifier matrix and the bias rows.
  A change of float format between two operations is the identity on the extended reals, so it does not show.
  A buffer a stretch does not write holds after it what it held before.
-/
import proofs.«179322_j24756191494756_2_alg».proof.Proof.Gen.KernelIdeal.Frame
import proofs.«179322_j24756191494756_2_alg».proof.Proof.RefRead
import Idealize.ShloMosaic.Lib.StableHlo.Run

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.ReadP

/-! ## The first stretch: the two degree counts and the first comparison -/

theorem s0_v3 (G : Valuation τ sig (Elt Ideal)) (X8 : (⟨S2097152, .i32⟩ : BufTy).Contents (Elt Ideal)) (h8 : G (Proc.devRef .tc main_arg8) = X8) :
    after (hostOps0 (F := Ideal)) G (Proc.devRef .tc main_v3) = val_main_v3 (F := Ideal) X8 := by
  after_results_simp
  rw [h8]
  rfl

theorem s0_v6 (G : Valuation τ sig (Elt Ideal)) (X9 : (⟨S2097152, .i32⟩ : BufTy).Contents (Elt Ideal)) (h9 : G (Proc.devRef .tc main_arg9) = X9) :
    after (hostOps0 (F := Ideal)) G (Proc.devRef .tc main_v6) = val_main_v6 (F := Ideal) X9 := by
  after_results_simp
  rw [h9]
  rfl

theorem s0_v8 (G : Valuation τ sig (Elt Ideal)) (X8 : (⟨S2097152, .i32⟩ : BufTy).Contents (Elt Ideal)) (h8 : G (Proc.devRef .tc main_arg8) = X8) :
    after (hostOps0 (F := Ideal)) G (Proc.devRef .tc main_v8) = val_main_v8 (F := Ideal) X8 := by
  after_results_simp
  rw [h8]
  rfl

theorem s0_cst3 (G : Valuation τ sig (Elt Ideal)) :
    after (hostOps0 (F := Ideal)) G (Proc.devRef .tc main_cst_3) = val_main_cst_3 (F := Ideal) := by
  after_results_simp
  rfl

theorem s0_arg0 (G : Valuation τ sig (Elt Ideal)) :
    after (hostOps0 (F := Ideal)) G (Proc.devRef .tc main_arg0) = G (Proc.devRef .tc main_arg0) := by
  after_results_simp

theorem s0_arg1 (G : Valuation τ sig (Elt Ideal)) :
    after (hostOps0 (F := Ideal)) G (Proc.devRef .tc main_arg1) = G (Proc.devRef .tc main_arg1) := by
  after_results_simp

theorem s0_arg2 (G : Valuation τ sig (Elt Ideal)) :
    after (hostOps0 (F := Ideal)) G (Proc.devRef .tc main_arg2) = G (Proc.devRef .tc main_arg2) := by
  after_results_simp

theorem s0_arg3 (G : Valuation τ sig (Elt Ideal)) :
    after (hostOps0 (F := Ideal)) G (Proc.devRef .tc main_arg3) = G (Proc.devRef .tc main_arg3) := by
  after_results_simp

theorem s0_arg4 (G : Valuation τ sig (Elt Ideal)) :
    after (hostOps0 (F := Ideal)) G (Proc.devRef .tc main_arg4) = G (Proc.devRef .tc main_arg4) := by
  after_results_simp

theorem s0_arg5 (G : Valuation τ sig (Elt Ideal)) :
    after (hostOps0 (F := Ideal)) G (Proc.devRef .tc main_arg5) = G (Proc.devRef .tc main_arg5) := by
  after_results_simp

theorem s0_arg6 (G : Valuation τ sig (Elt Ideal)) :
    after (hostOps0 (F := Ideal)) G (Proc.devRef .tc main_arg6) = G (Proc.devRef .tc main_arg6) := by
  after_results_simp

theorem s0_arg7 (G : Valuation τ sig (Elt Ideal)) :
    after (hostOps0 (F := Ideal)) G (Proc.devRef .tc main_arg7) = G (Proc.devRef .tc main_arg7) := by
  after_results_simp

theorem s0_arg8 (G : Valuation τ sig (Elt Ideal)) :
    after (hostOps0 (F := Ideal)) G (Proc.devRef .tc main_arg8) = G (Proc.devRef .tc main_arg8) := by
  after_results_simp

theorem s0_arg9 (G : Valuation τ sig (Elt Ideal)) :
    after (hostOps0 (F := Ideal)) G (Proc.devRef .tc main_arg9) = G (Proc.devRef .tc main_arg9) := by
  after_results_simp

theorem s0_arg10 (G : Valuation τ sig (Elt Ideal)) :
    after (hostOps0 (F := Ideal)) G (Proc.devRef .tc main_arg10) = G (Proc.devRef .tc main_arg10) := by
  after_results_simp

/-! ## The first choice: the out-degree where it is positive, one elsewhere -/

theorem s1_v9_raw (G : Valuation τ sig (Elt Ideal)) :
    after (hostOps0_1 (F := Ideal)) G (Proc.devRef .tc main_v9)
      = select (G (Proc.devRef .tc main_v8)) (G (Proc.devRef .tc main_v3)) (broadcastInDim S262144 ![] bcast_S_S262144 (G (Proc.devRef .tc main_cst_3))) := by
  after_results_simp
  rfl

theorem s1_v9 (G : Valuation τ sig (Elt Ideal)) (X8 : (⟨S2097152, .i32⟩ : BufTy).Contents (Elt Ideal)) (h8 : G (Proc.devRef .tc main_v8) = val_main_v8 (F := Ideal) X8)
    (h3 : G (Proc.devRef .tc main_v3) = val_main_v3 (F := Ideal) X8) (hc : G (Proc.devRef .tc main_cst_3) = val_main_cst_3 (F := Ideal)) :
    after (hostOps0_1 (F := Ideal)) G (Proc.devRef .tc main_v9) = val_main_v9 (F := Ideal) X8 := by
  rw [s1_v9_raw G, h8, h3, hc]
  rfl

theorem s1_v6 (G : Valuation τ sig (Elt Ideal)) :
    after (hostOps0_1 (F := Ideal)) G (Proc.devRef .tc main_v6) = G (Proc.devRef .tc main_v6) := by
  after_results_simp

theorem s1_arg0 (G : Valuation τ sig (Elt Ideal)) :
    after (hostOps0_1 (F := Ideal)) G (Proc.devRef .tc main_arg0) = G (Proc.devRef .tc main_arg0) := by
  after_results_simp

theorem s1_arg1 (G : Valuation τ sig (Elt Ideal)) :
    after (hostOps0_1 (F := Ideal)) G (Proc.devRef .tc main_arg1) = G (Proc.devRef .tc main_arg1) := by
  after_results_simp

theorem s1_arg2 (G : Valuation τ sig (Elt Ideal)) :
    after (hostOps0_1 (F := Ideal)) G (Proc.devRef .tc main_arg2) = G (Proc.devRef .tc main_arg2) := by
  after_results_simp

theorem s1_arg3 (G : Valuation τ sig (Elt Ideal)) :
    after (hostOps0_1 (F := Ideal)) G (Proc.devRef .tc main_arg3) = G (Proc.devRef .tc main_arg3) := by
  after_results_simp

theorem s1_arg4 (G : Valuation τ sig (Elt Ideal)) :
    after (hostOps0_1 (F := Ideal)) G (Proc.devRef .tc main_arg4) = G (Proc.devRef .tc main_arg4) := by
  after_results_simp

theorem s1_arg5 (G : Valuation τ sig (Elt Ideal)) :
    after (hostOps0_1 (F := Ideal)) G (Proc.devRef .tc main_arg5) = G (Proc.devRef .tc main_arg5) := by
  after_results_simp

theorem s1_arg6 (G : Valuation τ sig (Elt Ideal)) :
    after (hostOps0_1 (F := Ideal)) G (Proc.devRef .tc main_arg6) = G (Proc.devRef .tc main_arg6) := by
  after_results_simp

theorem s1_arg7 (G : Valuation τ sig (Elt Ideal)) :
    after (hostOps0_1 (F := Ideal)) G (Proc.devRef .tc main_arg7) = G (Proc.devRef .tc main_arg7) := by
  after_results_simp

theorem s1_arg8 (G : Valuation τ sig (Elt Ideal)) :
    after (hostOps0_1 (F := Ideal)) G (Proc.devRef .tc main_arg8) = G (Proc.devRef .tc main_arg8) := by
  after_results_simp

theorem s1_arg9 (G : Valuation τ sig (Elt Ideal)) :
    after (hostOps0_1 (F := Ideal)) G (Proc.devRef .tc main_arg9) = G (Proc.devRef .tc main_arg9) := by
  after_results_simp

theorem s1_arg10 (G : Valuation τ sig (Elt Ideal)) :
    after (hostOps0_1 (F := Ideal)) G (Proc.devRef .tc main_arg10) = G (Proc.devRef .tc main_arg10) := by
  after_results_simp

/-! ## The out-scale, and the second comparison -/

theorem s2_v11 (G : Valuation τ sig (Elt Ideal)) (X8 : (⟨S2097152, .i32⟩ : BufTy).Contents (Elt Ideal)) (h9 : G (Proc.devRef .tc main_v9) = val_main_v9 (F := Ideal) X8) :
    after (hostOps0_2 (F := Ideal)) G (Proc.devRef .tc main_v11) = val_main_v11 (F := Ideal) X8 := by
  after_results_simp
  rw [h9]
  rfl

theorem s2_v13 (G : Valuation τ sig (Elt Ideal)) (X9 : (⟨S2097152, .i32⟩ : BufTy).Contents (Elt Ideal)) (h6 : G (Proc.devRef .tc main_v6) = val_main_v6 (F := Ideal) X9) :
    after (hostOps0_2 (F := Ideal)) G (Proc.devRef .tc main_v13) = val_main_v13 (F := Ideal) X9 := by
  after_results_simp
  rw [h6]
  rfl

theorem s2_cst6 (G : Valuation τ sig (Elt Ideal)) :
    after (hostOps0_2 (F := Ideal)) G (Proc.devRef .tc main_cst_6) = val_main_cst_6 (F := Ideal) := by
  after_results_simp
  rfl

theorem s2_v6 (G : Valuation τ sig (Elt Ideal)) :
    after (hostOps0_2 (F := Ideal)) G (Proc.devRef .tc main_v6) = G (Proc.devRef .tc main_v6) := by
  after_results_simp

theorem s2_arg0 (G : Valuation τ sig (Elt Ideal)) :
    after (hostOps0_2 (F := Ideal)) G (Proc.devRef .tc main_arg0) = G (Proc.devRef .tc main_arg0) := by
  after_results_simp

theorem s2_arg1 (G : Valuation τ sig (Elt Ideal)) :
    after (hostOps0_2 (F := Ideal)) G (Proc.devRef .tc main_arg1) = G (Proc.devRef .tc main_arg1) := by
  after_results_simp

theorem s2_arg2 (G : Valuation τ sig (Elt Ideal)) :
    after (hostOps0_2 (F := Ideal)) G (Proc.devRef .tc main_arg2) = G (Proc.devRef .tc main_arg2) := by
  after_results_simp

theorem s2_arg3 (G : Valuation τ sig (Elt Ideal)) :
    after (hostOps0_2 (F := Ideal)) G (Proc.devRef .tc main_arg3) = G (Proc.devRef .tc main_arg3) := by
  after_results_simp

theorem s2_arg4 (G : Valuation τ sig (Elt Ideal)) :
    after (hostOps0_2 (F := Ideal)) G (Proc.devRef .tc main_arg4) = G (Proc.devRef .tc main_arg4) := by
  after_results_simp

theorem s2_arg5 (G : Valuation τ sig (Elt Ideal)) :
    after (hostOps0_2 (F := Ideal)) G (Proc.devRef .tc main_arg5) = G (Proc.devRef .tc main_arg5) := by
  after_results_simp

theorem s2_arg6 (G : Valuation τ sig (Elt Ideal)) :
    after (hostOps0_2 (F := Ideal)) G (Proc.devRef .tc main_arg6) = G (Proc.devRef .tc main_arg6) := by
  after_results_simp

theorem s2_arg7 (G : Valuation τ sig (Elt Ideal)) :
    after (hostOps0_2 (F := Ideal)) G (Proc.devRef .tc main_arg7) = G (Proc.devRef .tc main_arg7) := by
  after_results_simp

theorem s2_arg8 (G : Valuation τ sig (Elt Ideal)) :
    after (hostOps0_2 (F := Ideal)) G (Proc.devRef .tc main_arg8) = G (Proc.devRef .tc main_arg8) := by
  after_results_simp

theorem s2_arg9 (G : Valuation τ sig (Elt Ideal)) :
    after (hostOps0_2 (F := Ideal)) G (Proc.devRef .tc main_arg9) = G (Proc.devRef .tc main_arg9) := by
  after_results_simp

theorem s2_arg10 (G : Valuation τ sig (Elt Ideal)) :
    after (hostOps0_2 (F := Ideal)) G (Proc.devRef .tc main_arg10) = G (Proc.devRef .tc main_arg10) := by
  after_results_simp

/-! ## The second choice: the in-degree where it is positive, one elsewhere -/

theorem s3_v14_raw (G : Valuation τ sig (Elt Ideal)) :
    after (hostOps0_3 (F := Ideal)) G (Proc.devRef .tc main_v14)
      = select (G (Proc.devRef .tc main_v13)) (G (Proc.devRef .tc main_v6)) (broadcastInDim S262144 ![] bcast_S_S262144 (G (Proc.devRef .tc main_cst_6))) := by
  after_results_simp
  rfl

theorem s3_v14 (G : Valuation τ sig (Elt Ideal)) (X9 : (⟨S2097152, .i32⟩ : BufTy).Contents (Elt Ideal)) (h13 : G (Proc.devRef .tc main_v13) = val_main_v13 (F := Ideal) X9)
    (h6 : G (Proc.devRef .tc main_v6) = val_main_v6 (F := Ideal) X9) (hc : G (Proc.devRef .tc main_cst_6) = val_main_cst_6 (F := Ideal)) :
    after (hostOps0_3 (F := Ideal)) G (Proc.devRef .tc main_v14) = val_main_v14 (F := Ideal) X9 := by
  rw [s3_v14_raw G, h13, h6, hc]
  rfl

theorem s3_v11 (G : Valuation τ sig (Elt Ideal)) :
    after (hostOps0_3 (F := Ideal)) G (Proc.devRef .tc main_v11) = G (Proc.devRef .tc main_v11) := by
  after_results_simp

theorem s3_arg0 (G : Valuation τ sig (Elt Ideal)) :
    after (hostOps0_3 (F := Ideal)) G (Proc.devRef .tc main_arg0) = G (Proc.devRef .tc main_arg0) := by
  after_results_simp

theorem s3_arg1 (G : Valuation τ sig (Elt Ideal)) :
    after (hostOps0_3 (F := Ideal)) G (Proc.devRef .tc main_arg1) = G (Proc.devRef .tc main_arg1) := by
  after_results_simp

theorem s3_arg2 (G : Valuation τ sig (Elt Ideal)) :
    after (hostOps0_3 (F := Ideal)) G (Proc.devRef .tc main_arg2) = G (Proc.devRef .tc main_arg2) := by
  after_results_simp

theorem s3_arg3 (G : Valuation τ sig (Elt Ideal)) :
    after (hostOps0_3 (F := Ideal)) G (Proc.devRef .tc main_arg3) = G (Proc.devRef .tc main_arg3) := by
  after_results_simp

theorem s3_arg4 (G : Valuation τ sig (Elt Ideal)) :
    after (hostOps0_3 (F := Ideal)) G (Proc.devRef .tc main_arg4) = G (Proc.devRef .tc main_arg4) := by
  after_results_simp

theorem s3_arg5 (G : Valuation τ sig (Elt Ideal)) :
    after (hostOps0_3 (F := Ideal)) G (Proc.devRef .tc main_arg5) = G (Proc.devRef .tc main_arg5) := by
  after_results_simp

theorem s3_arg6 (G : Valuation τ sig (Elt Ideal)) :
    after (hostOps0_3 (F := Ideal)) G (Proc.devRef .tc main_arg6) = G (Proc.devRef .tc main_arg6) := by
  after_results_simp

theorem s3_arg7 (G : Valuation τ sig (Elt Ideal)) :
    after (hostOps0_3 (F := Ideal)) G (Proc.devRef .tc main_arg7) = G (Proc.devRef .tc main_arg7) := by
  after_results_simp

theorem s3_arg8 (G : Valuation τ sig (Elt Ideal)) :
    after (hostOps0_3 (F := Ideal)) G (Proc.devRef .tc main_arg8) = G (Proc.devRef .tc main_arg8) := by
  after_results_simp

theorem s3_arg9 (G : Valuation τ sig (Elt Ideal)) :
    after (hostOps0_3 (F := Ideal)) G (Proc.devRef .tc main_arg9) = G (Proc.devRef .tc main_arg9) := by
  after_results_simp

theorem s3_arg10 (G : Valuation τ sig (Elt Ideal)) :
    after (hostOps0_3 (F := Ideal)) G (Proc.devRef .tc main_arg10) = G (Proc.devRef .tc main_arg10) := by
  after_results_simp

/-! ## The in-scale, the first aggregation, and the columns and rows the first kernel reads -/

theorem s4_v16 (G : Valuation τ sig (Elt Ideal)) (X9 : (⟨S2097152, .i32⟩ : BufTy).Contents (Elt Ideal)) (h14 : G (Proc.devRef .tc main_v14) = val_main_v14 (F := Ideal) X9) :
    after (hostOps0_4 (F := Ideal)) G (Proc.devRef .tc main_v16) = val_main_v16 (F := Ideal) X9 := by
  after_results_simp
  rw [h14]
  rfl

theorem s4_v31 (G : Valuation τ sig (Elt Ideal)) (X0 : (⟨S262144x128, .f32⟩ : BufTy).Contents (Elt Ideal)) (X8 : (⟨S2097152, .i32⟩ : BufTy).Contents (Elt Ideal)) (X9 : (⟨S2097152, .i32⟩ : BufTy).Contents (Elt Ideal))
    (h0 : G (Proc.devRef .tc main_arg0) = X0) (h8 : G (Proc.devRef .tc main_arg8) = X8) (h9 : G (Proc.devRef .tc main_arg9) = X9)
    (h11 : G (Proc.devRef .tc main_v11) = val_main_v11 (F := Ideal) X8) :
    after (hostOps0_4 (F := Ideal)) G (Proc.devRef .tc main_v31) = val_main_v29 (F := Ideal) X0 X8 X9 := by
  after_results_simp
  rw [h0, h8, h9, h11]
  rfl

theorem s4_v32 (G : Valuation τ sig (Elt Ideal)) (X9 : (⟨S2097152, .i32⟩ : BufTy).Contents (Elt Ideal)) (h14 : G (Proc.devRef .tc main_v14) = val_main_v14 (F := Ideal) X9) :
    after (hostOps0_4 (F := Ideal)) G (Proc.devRef .tc main_v32) = shapeCast S262144x1 (val_main_v16 (F := Ideal) X9) shapeCasts_S262144_S262144x1 := by
  after_results_simp
  rw [h14]
  rfl

theorem s4_v33 (G : Valuation τ sig (Elt Ideal)) (X8 : (⟨S2097152, .i32⟩ : BufTy).Contents (Elt Ideal)) (h11 : G (Proc.devRef .tc main_v11) = val_main_v11 (F := Ideal) X8) :
    after (hostOps0_4 (F := Ideal)) G (Proc.devRef .tc main_v33) = shapeCast S262144x1 (val_main_v11 (F := Ideal) X8) shapeCasts_S262144_S262144x1 := by
  after_results_simp
  rw [h11]
  rfl

theorem s4_v34 (G : Valuation τ sig (Elt Ideal)) (X2 : (⟨S256, .f32⟩ : BufTy).Contents (Elt Ideal)) (h2 : G (Proc.devRef .tc main_arg2) = X2) :
    after (hostOps0_4 (F := Ideal)) G (Proc.devRef .tc main_v34) = shapeCast S1x256 X2 shapeCasts_S256_S1x256 := by
  after_results_simp
  rw [h2]
  rfl

theorem s4_arg0 (G : Valuation τ sig (Elt Ideal)) :
    after (hostOps0_4 (F := Ideal)) G (Proc.devRef .tc main_arg0) = G (Proc.devRef .tc main_arg0) := by
  after_results_simp

theorem s4_arg1 (G : Valuation τ sig (Elt Ideal)) :
    after (hostOps0_4 (F := Ideal)) G (Proc.devRef .tc main_arg1) = G (Proc.devRef .tc main_arg1) := by
  after_results_simp

theorem s4_arg2 (G : Valuation τ sig (Elt Ideal)) :
    after (hostOps0_4 (F := Ideal)) G (Proc.devRef .tc main_arg2) = G (Proc.devRef .tc main_arg2) := by
  after_results_simp

theorem s4_arg3 (G : Valuation τ sig (Elt Ideal)) :
    after (hostOps0_4 (F := Ideal)) G (Proc.devRef .tc main_arg3) = G (Proc.devRef .tc main_arg3) := by
  after_results_simp

theorem s4_arg4 (G : Valuation τ sig (Elt Ideal)) :
    after (hostOps0_4 (F := Ideal)) G (Proc.devRef .tc main_arg4) = G (Proc.devRef .tc main_arg4) := by
  after_results_simp

theorem s4_arg5 (G : Valuation τ sig (Elt Ideal)) :
    after (hostOps0_4 (F := Ideal)) G (Proc.devRef .tc main_arg5) = G (Proc.devRef .tc main_arg5) := by
  after_results_simp

theorem s4_arg6 (G : Valuation τ sig (Elt Ideal)) :
    after (hostOps0_4 (F := Ideal)) G (Proc.devRef .tc main_arg6) = G (Proc.devRef .tc main_arg6) := by
  after_results_simp

theorem s4_arg7 (G : Valuation τ sig (Elt Ideal)) :
    after (hostOps0_4 (F := Ideal)) G (Proc.devRef .tc main_arg7) = G (Proc.devRef .tc main_arg7) := by
  after_results_simp

theorem s4_arg8 (G : Valuation τ sig (Elt Ideal)) :
    after (hostOps0_4 (F := Ideal)) G (Proc.devRef .tc main_arg8) = G (Proc.devRef .tc main_arg8) := by
  after_results_simp

theorem s4_arg9 (G : Valuation τ sig (Elt Ideal)) :
    after (hostOps0_4 (F := Ideal)) G (Proc.devRef .tc main_arg9) = G (Proc.devRef .tc main_arg9) := by
  after_results_simp

theorem s4_arg10 (G : Valuation τ sig (Elt Ideal)) :
    after (hostOps0_4 (F := Ideal)) G (Proc.devRef .tc main_arg10) = G (Proc.devRef .tc main_arg10) := by
  after_results_simp

/-! ## Between the second and the third kernel: the second aggregation by groups, the in-scale by groups, the organism rows, the classifier halves, the bias rows -/

theorem h2_v48 (G : Valuation τ sig (Elt Ideal)) (X0 : (⟨S262144x128, .f32⟩ : BufTy).Contents (Elt Ideal)) (X1 : (⟨S128x256, .f32⟩ : BufTy).Contents (Elt Ideal)) (X2 : (⟨S256, .f32⟩ : BufTy).Contents (Elt Ideal)) (X3 : (⟨S256x128, .f32⟩ : BufTy).Contents (Elt Ideal)) (X8 : (⟨S2097152, .i32⟩ : BufTy).Contents (Elt Ideal)) (X9 : (⟨S2097152, .i32⟩ : BufTy).Contents (Elt Ideal))
    (hP : G (Proc.devRef .tc main_v36) = val_main_v41 (F := Ideal) X0 X1 X2 X3 X8 X9) (h8 : G (Proc.devRef .tc main_arg8) = X8) (h9 : G (Proc.devRef .tc main_arg9) = X9) :
    after (hostOps2 (F := Ideal)) G (Proc.devRef .tc main_v48)
      = shapeCast S2048x128x128 (val_main_v51 (F := Ideal) X0 X1 X2 X3 X8 X9) shapeCasts_S262144x128_S2048x128x128 := by
  after_results_simp
  rw [hP, h8, h9]
  rfl

theorem h2_v49 (G : Valuation τ sig (Elt Ideal)) (X9 : (⟨S2097152, .i32⟩ : BufTy).Contents (Elt Ideal)) (h16 : G (Proc.devRef .tc main_v16) = val_main_v16 (F := Ideal) X9) :
    after (hostOps2 (F := Ideal)) G (Proc.devRef .tc main_v49) = shapeCast S2048x128 (val_main_v16 (F := Ideal) X9) shapeCasts_S262144_S2048x128 := by
  after_results_simp
  rw [h16]
  rfl

theorem h2_v56 (G : Valuation τ sig (Elt Ideal)) (X5 : (⟨S4x128, .f32⟩ : BufTy).Contents (Elt Ideal)) (X10 : (⟨S2048, .i32⟩ : BufTy).Contents (Elt Ideal)) (h5 : G (Proc.devRef .tc main_arg5) = X5) (h10 : G (Proc.devRef .tc main_arg10) = X10) :
    after (hostOps2 (F := Ideal)) G (Proc.devRef .tc main_v56) = val_main_v68 (F := Ideal) X5 X10 := by
  after_results_simp
  rw [h5, h10]
  rfl

theorem h2_v57 (G : Valuation τ sig (Elt Ideal)) (X6 : (⟨S256x6, .f32⟩ : BufTy).Contents (Elt Ideal)) (h6 : G (Proc.devRef .tc main_arg6) = X6) :
    after (hostOps2 (F := Ideal)) G (Proc.devRef .tc main_v57) = extractStridedSlice S128x6 ![0, 0] X6 slices_S256x6_S128x6_0_0 := by
  after_results_simp
  rw [h6]

theorem h2_v58 (G : Valuation τ sig (Elt Ideal)) (X6 : (⟨S256x6, .f32⟩ : BufTy).Contents (Elt Ideal)) (h6 : G (Proc.devRef .tc main_arg6) = X6) :
    after (hostOps2 (F := Ideal)) G (Proc.devRef .tc main_v58) = extractStridedSlice S128x6 ![128, 0] X6 slices_S256x6_S128x6_128_0 := by
  after_results_simp
  rw [h6]

theorem h2_v59 (G : Valuation τ sig (Elt Ideal)) (X7 : (⟨S6, .f32⟩ : BufTy).Contents (Elt Ideal)) (h7 : G (Proc.devRef .tc main_arg7) = X7) :
    after (hostOps2 (F := Ideal)) G (Proc.devRef .tc main_v59) = shapeCast S1x6 X7 shapeCasts_S6_S1x6 := by
  after_results_simp
  rw [h7]
  rfl

theorem h2_v60 (G : Valuation τ sig (Elt Ideal)) (X4 : (⟨S128, .f32⟩ : BufTy).Contents (Elt Ideal)) (h4 : G (Proc.devRef .tc main_arg4) = X4) :
    after (hostOps2 (F := Ideal)) G (Proc.devRef .tc main_v60) = shapeCast S1x128 X4 shapeCasts_S128_S1x128 := by
  after_results_simp
  rw [h4]
  rfl

end Cert.KernelIdeal.HostStages

end
-- ==== Proof.Spec.lean ====
/-
  What the classifier computes, entry by entry, on the extended reals.

  A graph of 262144 nodes carries 128 features per node; the nodes come in 2048 groups of 128 consecutive nodes. Given
  an aggregated feature matrix, a per-node scale, weights and a bias, the first layer's hidden matrix is
  `max((A ⊙ c) · W₁ + b₁, 0)`; the second layer's projection is `(H · W₂) ⊙ c'`; the pooled features of a group are the
  mean over its 128 nodes of the scaled aggregate, plus a bias; and the logits are the pooled features and the group's
  organism row, each against its own half of the classifier matrix, plus a bias. Every sum is a finite sum in the
  additive monoid of the extended reals; products, `max` and the quotient by the float `128` are the exact ones.
-/
import Idealize.ShloMosaic.PureOps.Ideal
import Idealize.ShloMosaic.Lib.ValueIdx

noncomputable section

namespace Cert.Spec

open Idealize.ShloMosaic Idealize.ShloMosaic.ValueIdx

/-- An array of extended reals over a shape. -/
abbrev Arr (s : Shape) : Type := s.Idx → EReal

/-- The float word of `0.0`, read exactly. -/
abbrev zeroF : EReal := Ideal.ofBits .f32 0x00000000#32
/-- The float word of `128.0`, read exactly. -/
abbrev c128 : EReal := Ideal.ofBits .f32 0x43000000#32

/-- Node `l` of group `b`. -/
def node (b : Fin 2048) (l : Fin 128) : Fin 262144 := ⟨b.val * 128 + l.val, by have := b.isLt; have := l.isLt; omega⟩
/-- Row `k` of the classifier matrix's upper half. -/
def lo (k : Fin 128) : Fin 256 := ⟨k.val, by have := k.isLt; omega⟩
/-- Row `k` of the classifier matrix's lower half. -/
def hi (k : Fin 128) : Fin 256 := ⟨128 + k.val, by have := k.isLt; omega⟩

/-- Entry (n, j) of the hidden matrix `max((A ⊙ c) · W₁ + b₁, 0)`. -/
def hidden (A : Arr ⟨2, ![262144, 128]⟩) (c : Arr ⟨1, ![262144]⟩) (W1 : Arr ⟨2, ![128, 256]⟩) (b1 : Arr ⟨1, ![256]⟩)
    (n : Fin 262144) (j : Fin 256) : EReal :=
  max ((∑ k : Fin 128, (A (ix2 n k) * c (ix1 n)) * W1 (ix2 k j)) + b1 (ix1 j)) zeroF

/-- Entry (n, d) of the second projection `(H · W₂) ⊙ c'`. -/
def proj2 (H : Arr ⟨2, ![262144, 256]⟩) (W2 : Arr ⟨2, ![256, 128]⟩) (c' : Arr ⟨1, ![262144]⟩)
    (n : Fin 262144) (d : Fin 128) : EReal :=
  (∑ k : Fin 256, H (ix2 n k) * W2 (ix2 k d)) * c' (ix1 n)

/-- Entry (b, k) of the pooled features: the mean over group `b`'s nodes of the scaled aggregate, plus the bias. -/
def pooled (A : Arr ⟨2, ![262144, 128]⟩) (c : Arr ⟨1, ![262144]⟩) (b2 : Arr ⟨1, ![128]⟩) (b : Fin 2048) (k : Fin 128) : EReal :=
  Ideal.div (∑ l : Fin 128, A (ix2 (node b l) k) * c (ix1 (node b l))) c128 + b2 (ix1 k)

/-- Entry (b, j) of the logits: pooled features against the upper half of the classifier matrix, the organism row
    against the lower half, plus the bias. -/
def logits (P : Fin 2048 → Fin 128 → EReal) (O : Arr ⟨2, ![2048, 128]⟩) (Wc : Arr ⟨2, ![256, 6]⟩) (bc : Arr ⟨1, ![6]⟩)
    (b : Fin 2048) (j : Fin 6) : EReal :=
  ((∑ k : Fin 128, P b k * Wc (ix2 (lo k) j)) + (∑ k : Fin 128, O (ix2 b k) * Wc (ix2 (hi k) j))) + bc (ix1 j)

end Cert.Spec

end
-- ==== Proof.Region0.lean ====
/-
  The first projection kernel, from its blocks to its whole output array.

  The kernel runs over 64 grid points; point `t` reads rows 4096·t … 4096·t + 4095 of the aggregated features
  [262144, 128] and of the scale column [262144, 1], the whole weight matrix [128, 256] and the bias row [1, 256], and
  writes the same rows of its output [262144, 256]. Every row of the output lies in exactly the block of point
  ⌊row / 4096⌋, so after the run entry (n, j) of the output array is `max((∑ₖ (A(n,k) · c(n,0)) · W₁(k,j)) + b₁(0,j), 0)`
  of the arrays as the kernel found them.
-/
import proofs.«179322_j24756191494756_2_alg».proof.Proof.Gen.KernelIdeal.Frame
import proofs.«179322_j24756191494756_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 64 points: the row-blocked windows move with the point, the weight
    and bias windows stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block, as a row of the array. -/
def rowAt (t : Fin cfg0.N) (p : Fin 4096) : Fin 262144 := ⟨t.val * 4096 + p.val, by have := p.isLt; show _ < 262144; have : t.val < 64 := t.isLt; omega⟩

/-- The four arrays the kernel reads, as it finds them: the aggregate, the scale column, the weights, the bias row. -/
abbrev aggArr (c : Dev nD) : S262144x128.Idx → EReal := V c main_v31
abbrev scaleArr (c : Dev nD) : S262144x1.Idx → EReal := V c main_v32
abbrev weightArr (c : Dev nD) : S128x256.Idx → EReal := V c main_arg1
abbrev biasArr (c : Dev nD) : S1x256.Idx → EReal := V c main_v34

/-- The aggregate's block at a point, read at (p, k): row 4096·t + p of the array. -/
theorem agg_block (c : Dev nD) (t : Fin cfg0.N) (p : Fin 4096) (k : Fin 128) :
    iblk0 V c 0 t (ix2 p k) = aggArr V c (ix2 (rowAt t p) k) := by
  obtain ⟨e0, e1, -⟩ := index_facts t
  show V c main_v31 (((cfg0.win 0).blk t).view.emb (ix2 p k)) = V c main_v31 (ix2 (rowAt t p) k)
  refine congrArg (V c main_v31) (funext fun a => Fin.ext ?_)
  match a with
  | ⟨0, _⟩ => show win0_0.index t (0 : Fin 2) * 4096 + 1 * p.val = t.val * 4096 + p.val; rw [e0]; omega
  | ⟨1, _⟩ => show win0_0.index t (1 : Fin 2) * 128 + 1 * k.val = k.val; rw [e1]; omega

/-- The scale column's block at a point, read at (p, 0). -/
theorem scale_block (c : Dev nD) (t : Fin cfg0.N) (p : Fin 4096) :
    iblk0 V c 1 t (ix2 p (0 : Fin 1)) = scaleArr V c (ix2 (rowAt t p) (0 : Fin 1)) := by
  obtain ⟨-, -, e0, e1, -⟩ := index_facts t
  show V c main_v32 (((cfg0.win 1).blk t).view.emb (ix2 p (0 : Fin 1))) = V c main_v32 (ix2 (rowAt t p) (0 : Fin 1))
  refine congrArg (V c main_v32) (funext fun a => Fin.ext ?_)
  match a with
  | ⟨0, _⟩ => show win0_1.index t (0 : Fin 2) * 4096 + 1 * p.val = t.val * 4096 + p.val; rw [e0]; omega
  | ⟨1, _⟩ => show win0_1.index t (1 : Fin 2) * 1 + 1 * 0 = 0; rw [e1]

/-- The weight matrix's block is the whole matrix. -/
theorem weight_block (c : Dev nD) (t : Fin cfg0.N) (k : Fin 128) (j : Fin 256) :
    iblk0 V c 2 t (ix2 k j) = weightArr V c (ix2 k j) := by
  obtain ⟨-, -, -, -, e0, e1, -⟩ := index_facts t
  show V c main_arg1 (((cfg0.win 2).blk t).view.emb (ix2 k j)) = V c main_arg1 (ix2 k j)
  refine congrArg (V c main_arg1) (funext fun a => Fin.ext ?_)
  match a with
  | ⟨0, _⟩ => show win0_2.index t (0 : Fin 2) * 128 + 1 * k.val = k.val; rw [e0]; omega
  | ⟨1, _⟩ => show win0_2.index t (1 : Fin 2) * 256 + 1 * j.val = j.val; rw [e1]; omega

/-- The bias row's block is the whole row. -/
theorem bias_block (c : Dev nD) (t : Fin cfg0.N) (j : Fin 256) :
    iblk0 V c 3 t (ix2 (0 : Fin 1) j) = biasArr V c (ix2 (0 : Fin 1) j) := by
  obtain ⟨-, -, -, -, -, -, e0, e1, -⟩ := index_facts t
  show V c main_v34 (((cfg0.win 3).blk t).view.emb (ix2 (0 : Fin 1) j)) = V c main_v34 (ix2 (0 : Fin 1) j)
  refine congrArg (V c main_v34) (funext fun a => Fin.ext ?_)
  match a with
  | ⟨0, _⟩ => show win0_3.index t (0 : Fin 2) * 1 + 1 * 0 = 0; rw [e0]
  | ⟨1, _⟩ => show win0_3.index t (1 : Fin 2) * 256 + 1 * j.val = j.val; rw [e1]; omega

/-- The output array after the run, entry by entry, of the arrays the kernel found. -/
def result (c : Dev nD) : S262144x256.Idx → EReal := fun i =>
  max ((∑ k : Fin 128, (aggArr V c (ix2 (i 0) k) * scaleArr V c (ix2 (i 0) (0 : Fin 1))) * weightArr V c (ix2 k (i 1)))
        + biasArr V c (ix2 (0 : Fin 1) (i 1))) Cert.Spec.zeroF

/-- The body's value at an entry, as a hypothesis the assembly discharges. -/
abbrev BodyAt : Prop :=
  ∀ (x0 : Vec Ideal S4096x128 .f32) (x1 : Vec Ideal S4096x1 .f32) (x2 : Vec Ideal S128x256 .f32) (x3 : Vec Ideal S1x256 .f32) (p : Fin 4096) (j : Fin 256),
    k0_pay1 (F := Ideal) x0 x1 x2 x3 (ix2 p j)
      = max ((∑ k : Fin 128, (x0 (ix2 p k) * x1 (ix2 p (0 : Fin 1))) * x2 (ix2 k j)) + x3 (ix2 (0 : Fin 1) j)) Cert.Spec.zeroF

/-- What point `t` writes back is its block of `result`, given the body's value at an entry. -/
theorem flushed_eq (hbody : BodyAt) (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero offsets_zero]
  simp only [View.ld_unit_zero (S := S4096x128) offsets_zero, View.ld_unit_zero (S := S4096x1) offsets_zero,
    View.ld_unit_zero (S := S128x256) offsets_zero, View.ld_unit_zero (S := S1x256) offsets_zero]
  funext y
  obtain ⟨p, j, rfl⟩ : ∃ (p : Fin 4096) (j : Fin 256), y = ix2 p j := ⟨y 0, y 1, eq_ix2 y⟩
  refine (hbody _ _ _ _ p j).trans ?_
  obtain ⟨-, -, -, -, -, -, -, -, e0, e1⟩ := index_facts t
  have hemb : ((cfg0.win 4).blk t).view.emb (ix2 p j) = ix2 (rowAt t p) j := funext fun a => Fin.ext (by
    match a with
    | ⟨0, _⟩ => show win0_4.index t (0 : Fin 2) * 4096 + 1 * p.val = t.val * 4096 + p.val; rw [e0]; omega
    | ⟨1, _⟩ => show win0_4.index t (1 : Fin 2) * 256 + 1 * j.val = j.val; rw [e1]; omega)
  show _ = result V c (((cfg0.win 4).blk t).view.emb (ix2 p j))
  rw [hemb, scale_block V c t p, bias_block V c t j]
  show _ = max ((∑ k : Fin 128, (aggArr V c (ix2 (rowAt t p) k) * scaleArr V c (ix2 (rowAt t p) (0 : Fin 1))) * weightArr V c (ix2 k j))
        + biasArr V c (ix2 (0 : Fin 1) j)) Cert.Spec.zeroF
  refine congrArg (fun s => max (s + biasArr V c (ix2 (0 : Fin 1) j)) Cert.Spec.zeroF) (Finset.sum_congr rfl fun k _ => ?_)
  rw [agg_block V c t p k, weight_block V c t k j]

/-- An index of the output array is in point `t`'s block iff each coordinate is in the block's range. -/
theorem mem_block (t : Fin cfg0.N) (i : S262144x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v35).slice (win0_4.rect t)).set ↔ _
  rw [View.set_slice_whole, Rect.mem_set_unit]
  exact Iff.rfl

/-- Every row of the output lies in the block of the point ⌊row / 4096⌋. -/
theorem covered (i : S262144x256.Idx) : ∃ t : Fin cfg0.N, (cfg0.win 4).flush t = true ∧ i ∈ ((cfg0.win 4).blk t).view.set := by
  have h0 : (i 0).val < 262144 := (i 0).isLt
  have h1 : (i 1).val < 256 := (i 1).isLt
  let t : Fin cfg0.N := ⟨(i 0).val / 4096, by show _ < 64; omega⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 4096 ≤ (i 0).val ∧ (i 0).val < win0_4.index t (0 : Fin 2) * 4096 + 4096
    rw [e0]; show (i 0).val / 4096 * 4096 ≤ (i 0).val ∧ (i 0).val < (i 0).val / 4096 * 4096 + 4096; omega
  | ⟨1, _⟩ =>
    show win0_4.index t (1 : Fin 2) * 256 ≤ (i 1).val ∧ (i 1).val < win0_4.index t (1 : Fin 2) * 256 + 256
    rw [e1]; omega

/-- THE OUTPUT ARRAY after the kernel's run. -/
theorem final (hbody : BodyAt) (c : Dev nD) : (dat0 V c).arrAt 4 cfg0.N = result V c :=
  (dat0 V c).arrAt_eq_of_cover 4 (result V c) (fun t _ => flushed_eq V hbody c t) (covered)

end Cert.KernelIdeal.Region0

end
-- ==== Proof.Region1.lean ====
/-
  The second projection kernel, from its blocks to its whole output array.

  The kernel runs over 64 grid points; point `t` reads rows 4096·t … 4096·t + 4095 of the hidden matrix [262144, 256]
  and of the scale column [262144, 1], the whole weight matrix [256, 128], and writes the same rows of its output
  [262144, 128]. Entry (p, d) of what point `t` writes is the body's value at (p, d) of those blocks; every row of the
  output lies in exactly the block of point ⌊row / 4096⌋, so after the run entry (n, d) of the output array is
  `(∑ₖ H(n,k) · W₂(k,d)) · c'(n,0)` of the arrays as the kernel found them.
-/
import proofs.«179322_j24756191494756_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block index of each window at each of the 64 points: the row-blocked windows move with the point, the weight
    window stays. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block, as a row of the array. -/
def rowAt (t : Fin cfg1.N) (p : Fin 4096) : Fin 262144 := ⟨t.val * 4096 + p.val, by have := t.isLt; have := p.isLt; show _ < 262144; have : t.val < 64 := t.isLt; omega⟩

/-- The hidden matrix's block at a point, read at (p, k): row 4096·t + p of the array. -/
theorem hidden_block (c : Dev nD) (t : Fin cfg1.N) (p : Fin 4096) (k : Fin 256) :
    iblk1 V c 0 t (ix2 p k) = V c main_v35 (ix2 (rowAt t p) k) := by
  obtain ⟨e0, e1, -⟩ := index_facts t
  show V c main_v35 (((cfg1.win 0).blk t).view.emb (ix2 p k)) = V c main_v35 (ix2 (rowAt t p) k)
  refine congrArg (V c main_v35) (funext fun a => Fin.ext ?_)
  match a with
  | ⟨0, _⟩ => show win1_0.index t (0 : Fin 2) * 4096 + 1 * p.val = t.val * 4096 + p.val; rw [e0]; omega
  | ⟨1, _⟩ => show win1_0.index t (1 : Fin 2) * 256 + 1 * k.val = k.val; rw [e1]; omega

/-- The scale column's block at a point, read at (p, 0). -/
theorem scale_block (c : Dev nD) (t : Fin cfg1.N) (p : Fin 4096) :
    iblk1 V c 1 t (ix2 p (0 : Fin 1)) = V c main_v33 (ix2 (rowAt t p) (0 : Fin 1)) := by
  obtain ⟨-, -, e0, e1, -⟩ := index_facts t
  show V c main_v33 (((cfg1.win 1).blk t).view.emb (ix2 p (0 : Fin 1))) = V c main_v33 (ix2 (rowAt t p) (0 : Fin 1))
  refine congrArg (V c main_v33) (funext fun a => Fin.ext ?_)
  match a with
  | ⟨0, _⟩ => show win1_1.index t (0 : Fin 2) * 4096 + 1 * p.val = t.val * 4096 + p.val; rw [e0]; omega
  | ⟨1, _⟩ => show win1_1.index t (1 : Fin 2) * 1 + 1 * 0 = 0; rw [e1]

/-- The weight matrix's block is the whole matrix. -/
theorem weight_block (c : Dev nD) (t : Fin cfg1.N) (k : Fin 256) (d : Fin 128) :
    iblk1 V c 2 t (ix2 k d) = V c main_arg3 (ix2 k d) := by
  obtain ⟨-, -, -, -, e0, e1, -⟩ := index_facts t
  show V c main_arg3 (((cfg1.win 2).blk t).view.emb (ix2 k d)) = V c main_arg3 (ix2 k d)
  refine congrArg (V c main_arg3) (funext fun a => Fin.ext ?_)
  match a with
  | ⟨0, _⟩ => show win1_2.index t (0 : Fin 2) * 256 + 1 * k.val = k.val; rw [e0]; omega
  | ⟨1, _⟩ => show win1_2.index t (1 : Fin 2) * 128 + 1 * d.val = d.val; rw [e1]; omega

/-- The three arrays the kernel reads, as it finds them: the hidden matrix, the weights, the scale column. -/
abbrev hiddenArr (c : Dev nD) : S262144x256.Idx → EReal := V c main_v35
abbrev weightArr (c : Dev nD) : S256x128.Idx → EReal := V c main_arg3
abbrev scaleArr (c : Dev nD) : S262144x1.Idx → EReal := V c main_v33

/-- The output array after the run, entry by entry, of the arrays the kernel found. -/
def result (c : Dev nD) : S262144x128.Idx → EReal := fun i =>
  (∑ k : Fin 256, hiddenArr V c (ix2 (i 0) k) * weightArr V c (ix2 k (i 1))) * scaleArr V c (ix2 (i 0) (0 : Fin 1))

/-- What point `t` writes back is its block of `result`, given the body's value at an entry. -/
theorem flushed_eq
    (hbody : ∀ (x0 : Vec Ideal S4096x256 .bf16) (x1 : Vec Ideal S256x128 .f32) (x2 : Vec Ideal S4096x1 .f32) (p : Fin 4096) (d : Fin 128),
      k1_pay1 (F := Ideal) x0 x1 x2 (ix2 p d) = (∑ k : Fin 256, x0 (ix2 p k) * x1 (ix2 k d)) * x2 (ix2 p (0 : Fin 1)))
    (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero offsets_zero]
  simp only [View.ld_unit_zero (S := S4096x256) offsets_zero, View.ld_unit_zero (S := S256x128) offsets_zero,
    View.ld_unit_zero (S := S4096x1) offsets_zero]
  funext j
  obtain ⟨p, d, rfl⟩ : ∃ (p : Fin 4096) (d : Fin 128), j = ix2 p d := ⟨j 0, j 1, eq_ix2 j⟩
  refine (hbody _ _ _ p d).trans ?_
  obtain ⟨-, -, -, -, -, -, e0, e1⟩ := index_facts t
  have hemb : ((cfg1.win 3).blk t).view.emb (ix2 p d) = ix2 (rowAt t p) d := funext fun a => Fin.ext (by
    match a with
    | ⟨0, _⟩ => show win1_3.index t (0 : Fin 2) * 4096 + 1 * p.val = t.val * 4096 + p.val; rw [e0]; omega
    | ⟨1, _⟩ => show win1_3.index t (1 : Fin 2) * 128 + 1 * d.val = d.val; rw [e1]; omega)
  show _ = result V c (((cfg1.win 3).blk t).view.emb (ix2 p d))
  rw [hemb, scale_block V c t p]
  show _ = (∑ k : Fin 256, hiddenArr V c (ix2 (rowAt t p) k) * weightArr V c (ix2 k d)) * scaleArr V c (ix2 (rowAt t p) (0 : Fin 1))
  refine congrArg (· * scaleArr V c (ix2 (rowAt t p) (0 : Fin 1))) (Finset.sum_congr rfl fun k _ => ?_)
  rw [hidden_block V c t p k, weight_block V c t k d]

/-- An index of the output array is in point `t`'s block iff each coordinate is in the block's range. -/
theorem mem_block (t : Fin cfg1.N) (i : S262144x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v36).slice (win1_3.rect t)).set ↔ _
  rw [View.set_slice_whole, Rect.mem_set_unit]
  exact Iff.rfl

/-- Every row of the output lies in the block of the point ⌊row / 4096⌋. -/
theorem covered (i : S262144x128.Idx) : ∃ t : Fin cfg1.N, (cfg1.win 3).flush t = true ∧ i ∈ ((cfg1.win 3).blk t).view.set := by
  have h0 : (i 0).val < 262144 := (i 0).isLt
  have h1 : (i 1).val < 128 := (i 1).isLt
  let t : Fin cfg1.N := ⟨(i 0).val / 4096, by show _ < 64; omega⟩
  obtain ⟨-, -, -, -, -, -, e0, e1⟩ := index_facts t
  refine ⟨t, flush1_3 t, ?_⟩
  rw [mem_block]
  intro a
  match a with
  | ⟨0, _⟩ =>
    show win1_3.index t (0 : Fin 2) * 4096 ≤ (i 0).val ∧ (i 0).val < win1_3.index t (0 : Fin 2) * 4096 + 4096
    rw [e0]; show (i 0).val / 4096 * 4096 ≤ (i 0).val ∧ (i 0).val < (i 0).val / 4096 * 4096 + 4096; omega
  | ⟨1, _⟩ =>
    show win1_3.index t (1 : Fin 2) * 128 ≤ (i 1).val ∧ (i 1).val < win1_3.index t (1 : Fin 2) * 128 + 128
    rw [e1]; omega

/-- THE OUTPUT ARRAY after the kernel's run. -/
theorem final
    (hbody : ∀ (x0 : Vec Ideal S4096x256 .bf16) (x1 : Vec Ideal S256x128 .f32) (x2 : Vec Ideal S4096x1 .f32) (p : Fin 4096) (d : Fin 128),
      k1_pay1 (F := Ideal) x0 x1 x2 (ix2 p d) = (∑ k : Fin 256, x0 (ix2 p k) * x1 (ix2 k d)) * x2 (ix2 p (0 : Fin 1)))
    (c : Dev nD) : (dat1 V c).arrAt 3 cfg1.N = result V c :=
  (dat1 V c).arrAt_eq_of_cover 3 (result V c) (fun t _ => flushed_eq V hbody c t) (covered)

end Cert.KernelIdeal.Region1

end
-- ==== Proof.Region2.lean ====
/-
  The pooling and classifying kernel, from its blocks to its whole output array.

  The kernel runs over 16 grid points; point `t` reads groups 128·t … 128·t + 127 of the aggregated features
  [2048, 128, 128], of the scales [2048, 128] and of the organism rows [2048, 128], the two [128, 6] halves of the
  classifier matrix, the bias rows [1, 6] and [1, 128], and writes the same groups of its output [2048, 6]. Every group
  lies in exactly the block of point ⌊group / 128⌋, so after the run entry (b, j) of the output is
  `∑ₖ ((∑ₗ A(b,l,k) · c(b,l)) / 128 + b₂(0,k)) · U(k,j) + ∑ₖ O(b,k) · L(k,j) + b(0,j)` of the arrays as the kernel found them.
-/
import proofs.«179322_j24756191494756_2_alg».proof.Proof.Gen.KernelIdeal.Frame
import proofs.«179322_j24756191494756_2_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl
theorem offsets_zero3 : (![0, 0, 0] : Fin 3 → Nat) = fun _ => 0 := funext fun a => by fin_cases a <;> rfl

/-- The block index of each window at each of the 16 points: the group-blocked windows move with the point, the
    classifier halves and the bias rows stay. -/
theorem index_facts : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Group `p` of point `t`'s block, as a group of the array. -/
def groupAt (t : Fin cfg2.N) (p : Fin 128) : Fin 2048 := ⟨t.val * 128 + p.val, by have := p.isLt; show _ < 2048; have : t.val < 16 := t.isLt; omega⟩

/-- The seven arrays the kernel reads, as it finds them. -/
abbrev aggArr (c : Dev nD) : S2048x128x128.Idx → EReal := V c main_v48
abbrev scaleArr (c : Dev nD) : S2048x128.Idx → EReal := V c main_v49
abbrev orgArr (c : Dev nD) : S2048x128.Idx → EReal := V c main_v56
abbrev upperArr (c : Dev nD) : S128x6.Idx → EReal := V c main_v57
abbrev lowerArr (c : Dev nD) : S128x6.Idx → EReal := V c main_v58
abbrev biasArr (c : Dev nD) : S1x6.Idx → EReal := V c main_v59
abbrev bias2Arr (c : Dev nD) : S1x128.Idx → EReal := V c main_v60

theorem agg_block (c : Dev nD) (t : Fin cfg2.N) (p l k : Fin 128) :
    iblk2 V c 0 t (ix3 p l k) = aggArr V c (ix3 (groupAt t p) l k) := by
  obtain ⟨e0, e1, e2, -⟩ := index_facts t
  show V c main_v48 (((cfg2.win 0).blk t).view.emb (ix3 p l k)) = V c main_v48 (ix3 (groupAt t p) l k)
  refine congrArg (V c main_v48) (funext fun a => Fin.ext ?_)
  match a with
  | ⟨0, _⟩ => show win2_0.index t (0 : Fin 3) * 128 + 1 * p.val = t.val * 128 + p.val; rw [e0]; omega
  | ⟨1, _⟩ => show win2_0.index t (1 : Fin 3) * 128 + 1 * l.val = l.val; rw [e1]; omega
  | ⟨2, _⟩ => show win2_0.index t (2 : Fin 3) * 128 + 1 * k.val = k.val; rw [e2]; omega

theorem scale_block (c : Dev nD) (t : Fin cfg2.N) (p l : Fin 128) :
    iblk2 V c 1 t (ix2 p l) = scaleArr V c (ix2 (groupAt t p) l) := by
  obtain ⟨-, -, -, e0, e1, -⟩ := index_facts t
  show V c main_v49 (((cfg2.win 1).blk t).view.emb (ix2 p l)) = V c main_v49 (ix2 (groupAt t p) l)
  refine congrArg (V c main_v49) (funext fun a => Fin.ext ?_)
  match a with
  | ⟨0, _⟩ => show win2_1.index t (0 : Fin 2) * 128 + 1 * p.val = t.val * 128 + p.val; rw [e0]; omega
  | ⟨1, _⟩ => show win2_1.index t (1 : Fin 2) * 128 + 1 * l.val = l.val; rw [e1]; omega

theorem org_block (c : Dev nD) (t : Fin cfg2.N) (p k : Fin 128) :
    iblk2 V c 2 t (ix2 p k) = orgArr V c (ix2 (groupAt t p) k) := by
  obtain ⟨-, -, -, -, -, e0, e1, -⟩ := index_facts t
  show V c main_v56 (((cfg2.win 2).blk t).view.emb (ix2 p k)) = V c main_v56 (ix2 (groupAt t p) k)
  refine congrArg (V c main_v56) (funext fun a => Fin.ext ?_)
  match a with
  | ⟨0, _⟩ => show win2_2.index t (0 : Fin 2) * 128 + 1 * p.val = t.val * 128 + p.val; rw [e0]; omega
  | ⟨1, _⟩ => show win2_2.index t (1 : Fin 2) * 128 + 1 * k.val = k.val; rw [e1]; omega

theorem upper_block (c : Dev nD) (t : Fin cfg2.N) (k : Fin 128) (j : Fin 6) :
    iblk2 V c 3 t (ix2 k j) = upperArr V c (ix2 k j) := by
  obtain ⟨-, -, -, -, -, -, -, e0, e1, -⟩ := index_facts t
  show V c main_v57 (((cfg2.win 3).blk t).view.emb (ix2 k j)) = V c main_v57 (ix2 k j)
  refine congrArg (V c main_v57) (funext fun a => Fin.ext ?_)
  match a with
  | ⟨0, _⟩ => show win2_3.index t (0 : Fin 2) * 128 + 1 * k.val = k.val; rw [e0]; omega
  | ⟨1, _⟩ => show win2_3.index t (1 : Fin 2) * 6 + 1 * j.val = j.val; rw [e1]; omega

theorem lower_block (c : Dev nD) (t : Fin cfg2.N) (k : Fin 128) (j : Fin 6) :
    iblk2 V c 4 t (ix2 k j) = lowerArr V c (ix2 k j) := by
  obtain ⟨-, -, -, -, -, -, -, -, -, e0, e1, -⟩ := index_facts t
  show V c main_v58 (((cfg2.win 4).blk t).view.emb (ix2 k j)) = V c main_v58 (ix2 k j)
  refine congrArg (V c main_v58) (funext fun a => Fin.ext ?_)
  match a with
  | ⟨0, _⟩ => show win2_4.index t (0 : Fin 2) * 128 + 1 * k.val = k.val; rw [e0]; omega
  | ⟨1, _⟩ => show win2_4.index t (1 : Fin 2) * 6 + 1 * j.val = j.val; rw [e1]; omega

theorem bias_block (c : Dev nD) (t : Fin cfg2.N) (j : Fin 6) :
    iblk2 V c 5 t (ix2 (0 : Fin 1) j) = biasArr V c (ix2 (0 : Fin 1) j) := by
  obtain ⟨-, -, -, -, -, -, -, -, -, -, -, e0, e1, -⟩ := index_facts t
  show V c main_v59 (((cfg2.win 5).blk t).view.emb (ix2 (0 : Fin 1) j)) = V c main_v59 (ix2 (0 : Fin 1) j)
  refine congrArg (V c main_v59) (funext fun a => Fin.ext ?_)
  match a with
  | ⟨0, _⟩ => show win2_5.index t (0 : Fin 2) * 1 + 1 * 0 = 0; rw [e0]
  | ⟨1, _⟩ => show win2_5.index t (1 : Fin 2) * 6 + 1 * j.val = j.val; rw [e1]; omega

theorem bias2_block (c : Dev nD) (t : Fin cfg2.N) (k : Fin 128) :
    iblk2 V c 6 t (ix2 (0 : Fin 1) k) = bias2Arr V c (ix2 (0 : Fin 1) k) := by
  obtain ⟨-, -, -, -, -, -, -, -, -, -, -, -, -, e0, e1, -⟩ := index_facts t
  show V c main_v60 (((cfg2.win 6).blk t).view.emb (ix2 (0 : Fin 1) k)) = V c main_v60 (ix2 (0 : Fin 1) k)
  refine congrArg (V c main_v60) (funext fun a => Fin.ext ?_)
  match a with
  | ⟨0, _⟩ => show win2_6.index t (0 : Fin 2) * 1 + 1 * 0 = 0; rw [e0]
  | ⟨1, _⟩ => show win2_6.index t (1 : Fin 2) * 128 + 1 * k.val = k.val; rw [e1]; omega

/-- One entry of the output from seven arrays, at group `b` and class `j`. -/
def entry (A : S2048x128x128.Idx → EReal) (C O : S2048x128.Idx → EReal) (U L : S128x6.Idx → EReal) (B : S1x6.Idx → EReal)
    (B2 : S1x128.Idx → EReal) (b : Fin 2048) (j : Fin 6) : EReal :=
  ((∑ k : Fin 128, (Ideal.div (∑ l : Fin 128, A (ix3 b l k) * C (ix2 b l)) Cert.Spec.c128 + B2 (ix2 (0 : Fin 1) k)) * U (ix2 k j))
    + (∑ k : Fin 128, O (ix2 b k) * L (ix2 k j))) + B (ix2 (0 : Fin 1) j)

/-- The output array after the run, entry by entry, of the arrays the kernel found. -/
def result (c : Dev nD) : S2048x6.Idx → EReal := fun i =>
  entry (aggArr V c) (scaleArr V c) (orgArr V c) (upperArr V c) (lowerArr V c) (biasArr V c) (bias2Arr V c) (i 0) (i 1)

/-- The body's value at an entry, as a hypothesis the assembly discharges. -/
abbrev BodyAt : Prop :=
  ∀ (h : Vec Ideal S128x128x128 .f32) (cn : Vec Ideal S128x128 .f32) (b2 : Vec Ideal S1x128 .f32) (o : Vec Ideal S128x128 .f32)
    (w1 w2 : Vec Ideal S128x6 .f32) (bc : Vec Ideal S1x6 .f32) (p : Fin 128) (j : Fin 6),
    k2_pay1 (F := Ideal) h cn b2 o w1 w2 bc (ix2 p j)
      = ((∑ k : Fin 128, (Ideal.div (∑ l : Fin 128, h (ix3 p l k) * cn (ix2 p l)) Cert.Spec.c128 + b2 (ix2 (0 : Fin 1) k)) * w1 (ix2 k j))
          + (∑ k : Fin 128, o (ix2 p k) * w2 (ix2 k j))) + bc (ix2 (0 : Fin 1) j)

/-- What point `t` writes back is its block of `result`, given the body's value at an entry. -/
theorem flushed_eq (hbody : BodyAt) (c : Dev nD) (t : Fin cfg2.N) :
    (dat2 V c).flushed 7 t = ((cfg2.win 7).blk t).view.read (Elt Ideal) (result V c) := by
  show (cfg2.win 7).cut (grid2.coords t) ((dat2 V c).after 7 t) = _
  rw [after2_7]
  unfold out2_7
  rw [View.canon_unit_zero offsets_zero]
  simp only [View.ld_unit_zero (S := S128x128x128) offsets_zero3, View.ld_unit_zero (S := S128x128) offsets_zero,
    View.ld_unit_zero (S := S1x128) offsets_zero, View.ld_unit_zero (S := S128x6) offsets_zero, View.ld_unit_zero (S := S1x6) offsets_zero]
  funext y
  obtain ⟨p, j, rfl⟩ : ∃ (p : Fin 128) (j : Fin 6), y = ix2 p j := ⟨y 0, y 1, eq_ix2 y⟩
  refine (hbody _ _ _ _ _ _ _ p j).trans ?_
  obtain ⟨-, -, -, -, -, -, -, -, -, -, -, -, -, -, -, e0, e1⟩ := index_facts t
  have hemb : ((cfg2.win 7).blk t).view.emb (ix2 p j) = ix2 (groupAt t p) j := funext fun a => Fin.ext (by
    match a with
    | ⟨0, _⟩ => show win2_7.index t (0 : Fin 2) * 128 + 1 * p.val = t.val * 128 + p.val; rw [e0]; omega
    | ⟨1, _⟩ => show win2_7.index t (1 : Fin 2) * 6 + 1 * j.val = j.val; rw [e1]; omega)
  show _ = result V c (((cfg2.win 7).blk t).view.emb (ix2 p j))
  rw [hemb, bias_block V c t j]
  show _ = entry (aggArr V c) (scaleArr V c) (orgArr V c) (upperArr V c) (lowerArr V c) (biasArr V c) (bias2Arr V c) (groupAt t p) j
  unfold entry
  refine congrArg (· + biasArr V c (ix2 (0 : Fin 1) j)) ?_
  refine congrArg₂ (· + ·) (Finset.sum_congr rfl fun k _ => ?_) (Finset.sum_congr rfl fun k _ => ?_)
  · rw [bias2_block V c t k, upper_block V c t k j]
    refine congrArg (fun s => (Ideal.div s Cert.Spec.c128 + bias2Arr V c (ix2 (0 : Fin 1) k)) * upperArr V c (ix2 k j)) (Finset.sum_congr rfl fun l _ => ?_)
    rw [agg_block V c t p l k, scale_block V c t p l]
  · rw [org_block V c t p k, lower_block V c t k j]

/-- An index of the output array is in point `t`'s block iff each coordinate is in the block's range. -/
theorem mem_block (t : Fin cfg2.N) (i : S2048x6.Idx) :
    i ∈ ((cfg2.win 7).blk t).view.set ↔ ∀ a : Fin 2, win2_7.index t a * S128x6.size a ≤ (i a).val ∧ (i a).val < win2_7.index t a * S128x6.size a + S128x6.size a := by
  show i ∈ ((View.whole main_v61).slice (win2_7.rect t)).set ↔ _
  rw [View.set_slice_whole, Rect.mem_set_unit]
  exact Iff.rfl

/-- Every group of the output lies in the block of the point ⌊group / 128⌋. -/
theorem covered (i : S2048x6.Idx) : ∃ t : Fin cfg2.N, (cfg2.win 7).flush t = true ∧ i ∈ ((cfg2.win 7).blk t).view.set := by
  have h0 : (i 0).val < 2048 := (i 0).isLt
  have h1 : (i 1).val < 6 := (i 1).isLt
  let t : Fin cfg2.N := ⟨(i 0).val / 128, by show _ < 16; omega⟩
  obtain ⟨-, -, -, -, -, -, -, -, -, -, -, -, -, -, -, e0, e1⟩ := index_facts t
  refine ⟨t, flush2_7 t, ?_⟩
  rw [mem_block]
  intro a
  match a with
  | ⟨0, _⟩ =>
    show win2_7.index t (0 : Fin 2) * 128 ≤ (i 0).val ∧ (i 0).val < win2_7.index t (0 : Fin 2) * 128 + 128
    rw [e0]; show (i 0).val / 128 * 128 ≤ (i 0).val ∧ (i 0).val < (i 0).val / 128 * 128 + 128; omega
  | ⟨1, _⟩ =>
    show win2_7.index t (1 : Fin 2) * 6 ≤ (i 1).val ∧ (i 1).val < win2_7.index t (1 : Fin 2) * 6 + 6
    rw [e1]; omega

/-- THE OUTPUT ARRAY after the kernel's run. -/
theorem final (hbody : BodyAt) (c : Dev nD) : (dat2 V c).arrAt 7 cfg2.N = result V c :=
  (dat2 V c).arrAt_eq_of_cover 7 (result V c) (fun t _ => flushed_eq V hbody c t) (covered)

end Cert.KernelIdeal.Region2

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibAxis.lean ====
/-
  One-axis reductions and two layout operations of small-rank vectors, read at coordinates, at the ideal values.

  * A `vector.multi_reduction <add>` over axis 2 of a rank-4 vector, over axis 0 of a rank-2 vector: the sum over
    that axis's coordinate. A `<minimumf>` / `<maximumf>` over axis 1 of a rank-3 vector: the fold of `min` / `max`
    from the accumulator's value over that axis's coordinate.
  * A `vector.shape_cast` [a, b] → [a, 1, b] (a middle unit axis inserted) read at (i, 0, j) is the operand at (i, j);
    a `vector.broadcast` [a, 1, b] → [a, n, b] read at (i, k, j) is the operand at (i, 0, j).
  Every index is built from coordinates of literal `Fin` types, so the lemmas fire on goals written the same way.
-/
import Idealize.ShloMosaic.PureOps.Ideal.Laws
import Idealize.ShloMosaic.Lib.ValueIdx
import Idealize.ShloMosaic.Lib.Pipeline.Value

noncomputable section

open scoped BigOperators

namespace Cert.LibAxis

open Idealize.ShloMosaic Idealize.ShloMosaic.ValueIdx

variable {φ : FTy}

/-- Summing a rank-4 vector over axis 2: at (i, j, l) the sum over `k` of the entries (i, j, k, l). -/
theorem sum_axis2_of4 {a b c d : ℕ} (x : FVec Ideal ⟨4, ![a, b, c, d]⟩ φ) (acc : BitVec φ.bits)
    (h : (⟨4, ![a, b, c, d]⟩ : Shape).Reduces [2] ⟨3, ![a, b, d]⟩) (hφ : FKind.Formats φ)
    (hacc : acc = FKind.add.neutral φ hφ) (i : Fin a) (j : Fin b) (l : Fin d) :
    multiReduction .add [2] ⟨3, ![a, b, d]⟩ x acc h hφ hacc (ix3 i j l) = ∑ k : Fin c, x (ix4 i j k l) := by
  refine (Ideal.multiReduction_add_single x acc h hφ hacc (ix3 i j l)).trans ?_
  refine Finset.sum_congr rfl fun k _ => ?_
  exact congrArg x (funext fun e => Fin.ext (by
    match e with | ⟨0, _⟩ => rfl | ⟨1, _⟩ => rfl | ⟨2, _⟩ => rfl | ⟨3, _⟩ => rfl))

/-- Summing a rank-2 vector over axis 0: at `j` the sum over `k` of the entries (k, j). -/
theorem sum_axis0_of2 {a b : ℕ} (x : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (j : Fin b) :
    multiReduction .add [0] ⟨1, ![b]⟩ x acc h hφ hacc (ix1 j) = ∑ k : Fin a, x (ix2 k j) := by
  refine (Ideal.multiReduction_add_single x acc h hφ hacc (ix1 j)).trans ?_
  refine Finset.sum_congr rfl fun k _ => ?_
  exact congrArg x (funext fun e => Fin.ext (by match e with | ⟨0, _⟩ => rfl | ⟨1, _⟩ => rfl))

/-- The index (i, j) of a rank-2 shape with the coordinate `k` put back at axis 1 is (i, k, j). -/
theorem lift_axis1_of3 {a n b : ℕ} (h : (⟨3, ![a, n, b]⟩ : Shape).Reduces [1] ⟨2, ![a, b]⟩) (i : Fin a) (j : Fin b)
    (k : Fin n) : h.lift (ix2 i j) k = ix3 i k j :=
  funext fun e => Fin.ext (by match e with | ⟨0, _⟩ => rfl | ⟨1, _⟩ => rfl | ⟨2, _⟩ => rfl)

/-- The least entry along axis 1 of a rank-3 vector, from the accumulator's value. -/
theorem min_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.minimumf.neutral φ hφ) (i : Fin a) (j : Fin b) :
    multiReduction .minimumf [1] ⟨2, ![a, b]⟩ x acc h hφ hacc (ix2 i j)
      = (Finset.univ : Finset (Fin n)).fold min (Ideal.ofBits φ acc) (fun k => x (ix3 i k j)) := by
  rw [multiReduction_minimumf_eq_fold]
  refine (h.fold_filter_drop_single _ _ x (ix2 i j)).trans ?_
  exact Finset.fold_congr fun k _ => congrArg x (lift_axis1_of3 h i j k)

/-- The greatest entry along axis 1 of a rank-3 vector, from the accumulator's value. -/
theorem max_axis1_of3 {a n b : ℕ} (x : FVec Ideal ⟨3, ![a, n, b]⟩ φ) (acc : BitVec φ.bits)
    (h : (⟨3, ![a, n, b]⟩ : Shape).Reduces [1] ⟨2, ![a, b]⟩) (hφ : FKind.Formats φ)
    (hacc : acc = FKind.maximumf.neutral φ hφ) (i : Fin a) (j : Fin b) :
    multiReduction .maximumf [1] ⟨2, ![a, b]⟩ x acc h hφ hacc (ix2 i j)
      = (Finset.univ : Finset (Fin n)).fold max (Ideal.ofBits φ acc) (fun k => x (ix3 i k j)) := by
  refine (Ideal.multiReduction_maximumf_single x acc h hφ hacc (ix2 i j)).trans ?_
  exact Finset.fold_congr fun k _ => congrArg x (lift_axis1_of3 h i j k)

variable {α : Type}

/-- [a, b] → [a, 1, b]: the entry (i, 0, j) of the cast is the entry (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, 1, b] → [a, n, b]: the entry (i, k, j) of the broadcast is the entry (i, 0, j). -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · omega
    · rfl
  | ⟨1, _⟩ => show 0 = if (1 : ℕ) = 1 then 0 else k.val; rw [if_pos rfl]
  | ⟨2, _⟩ =>
    show j.val = if b = 1 then 0 else j.val
    split
    · omega
    · rfl

end Cert.LibAxis

end
-- ==== Proof.BodyValues.lean ====
/-
  The three kernel bodies, read entry by entry on the extended reals.

  Each body stores one array computed from the blocks it loads. With every float operation read exactly (a narrowing
  or widening of the float format is the identity, a constant is its exact value) the stored arrays are:

  * first layer, a [4096, 256] block from a feature block A [4096, 128], a scale column c [4096, 1], weights W [128, 256]
    and a bias row b [1, 256]:   entry (p, j) = max( (∑ k < 128, (A(p,k) · c(p,0)) · W(k,j)) + b(0,j), 0 );
  * second layer, a [4096, 128] block from a hidden block H [4096, 256], weights W [256, 128] and a scale column
    c [4096, 1]:                 entry (p, d) = (∑ k < 256, H(p,k) · W(k,d)) · c(p,0);
  * pooling and classification, a [128, 6] block from node features h [128, 128, 128] (group, node, feature), a scale
    c [128, 128] (group, node), a bias row b [1, 128], organism rows o [128, 128], two classifier halves W₁, W₂ [128, 6]
    and a bias row b' [1, 6]:    entry (p, j) = (∑ k < 128, ((∑ l < 128, h(p,l,k) · c(p,l)) / 128 + b(0,k)) · W₁(k,j))
                                               + (∑ k < 128, o(p,k) · W₂(k,j)) + b'(0,j).

  The proofs push the index through the pointwise operations (definitionally) and use one lemma per operation that moves
  entries: a cast to the same shape is the identity, a column or row broadcast reads its one column or row, a cast
  [a, b] → [a, b, 1] and a broadcast [a, b, 1] → [a, b, n] read the entry (i, j), a sum over the middle axis of a rank-3
  array is the sum over that coordinate, and a matrix product into the zero accumulator is the sum of products.
-/
import proofs.«179322_j24756191494756_2_alg».proof.Proof.Gen.KernelIdeal.Skeleton
import proofs.«179322_j24756191494756_2_alg».proof.Proof.Spec
import proofs.«179322_j24756191494756_2_alg».proof.Proof.LibMatmulRows
import proofs.«179322_j24756191494756_2_alg».proof.Proof.LibKeepdims
import proofs.«179322_j24756191494756_2_alg».proof.Proof.LibAxis
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-! ## Two layout operations at coordinates: a trailing unit axis added, then broadcast -/

section Layout
variable {α : Type}

/-- [a, b] → [a, b, 1]: the entry (i, j, 0) of the cast is the entry (i, j); both have row-major position i·b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a, b, 1] → [a, b, n]: the entry (i, j, k) of the broadcast is the entry (i, j, 0). -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · omega
    · rfl
  | ⟨1, _⟩ =>
    show j.val = if b = 1 then 0 else j.val
    split
    · omega
    · rfl
  | ⟨2, _⟩ => show 0 = if (1 : ℕ) = 1 then 0 else k.val; rw [if_pos rfl]

end Layout

/-! ## The second layer's body -/

/-- Entry (p, d) of the second layer's block: the row of the hidden block against the weights' column, times the
    row's scale. -/
theorem gconv2_at (x0 : Vec Ideal S4096x256 .bf16) (x1 : Vec Ideal S256x128 .f32) (x2 : Vec Ideal S4096x1 .f32)
    (p : Fin 4096) (d : Fin 128) :
    k1_pay1 (F := Ideal) x0 x1 x2 (ix2 p d)
      = (∑ k : Fin 256, x0 (ix2 p k) * x1 (ix2 k d)) * x2 (ix2 p (0 : Fin 1)) := by
  show matmul dot_S4096x256_S256x128_S4096x128_1_0_0_1_n_n none
        (shapeCast S4096x256 x0 shapeCasts_S4096x256_S4096x256)
        (truncf (F := Ideal) .bf16 x1 bitsLt_bf16_f32) (constant S4096x128 .f32 0x00000000#32) (ix2 p d)
      * broadcastTo S4096x128 (shapeCast S4096x1 x2 shapeCasts_S4096x1_S4096x1) broadcasts_S4096x1_S4096x128 (ix2 p d) = _
  rw [shapeCast_self, shapeCast_self]
  refine congrArg₂ (· * ·) ?_ ?_
  · exact Cert.LibMatmulRows.matmul_zero_ix2 (φ₁ := .bf16) (φ₂ := .bf16) dot_S4096x256_S256x128_S4096x128_1_0_0_1_n_n rfl rfl
      (fun _ _ => rfl) (fun _ _ => rfl) (fun _ _ => rfl) (fun _ _ => rfl) none x0 (truncf (F := Ideal) .bf16 x1 bitsLt_bf16_f32) p d
  · exact Cert.LibKeepdims.broadcastTo_a1_ab_apply x2 _ p d

/-! ## The first layer's body -/

/-- Entry (p, j) of the first layer's block: the scaled feature row against the weights' column, plus the bias, clamped
    below at zero. -/
theorem gconv1_at (x0 : Vec Ideal S4096x128 .f32) (x1 : Vec Ideal S4096x1 .f32) (x2 : Vec Ideal S128x256 .f32)
    (x3 : Vec Ideal S1x256 .f32) (p : Fin 4096) (j : Fin 256) :
    k0_pay1 (F := Ideal) x0 x1 x2 x3 (ix2 p j)
      = max ((∑ k : Fin 128, (x0 (ix2 p k) * x1 (ix2 p (0 : Fin 1))) * x2 (ix2 k j)) + x3 (ix2 (0 : Fin 1) j))
          Cert.Spec.zeroF := by
  show max
      (matmul dot_S4096x128_S128x256_S4096x256_1_0_0_1_n_n none
          (truncf (F := Ideal) .bf16
            (mulf (shapeCast S4096x128 x0 shapeCasts_S4096x128_S4096x128)
              (broadcastTo S4096x128 (shapeCast S4096x1 x1 shapeCasts_S4096x1_S4096x1) broadcasts_S4096x1_S4096x128))
            bitsLt_bf16_f32)
          (truncf (F := Ideal) .bf16 x2 bitsLt_bf16_f32) (constant S4096x256 .f32 0x00000000#32) (ix2 p j)
        + broadcastTo S4096x256 (shapeCast S1x256 x3 shapeCasts_S1x256_S1x256) broadcasts_S1x256_S4096x256 (ix2 p j))
      (Ideal.ofBits .f32 0x00000000#32) = _
  rw [shapeCast_self, shapeCast_self, shapeCast_self]
  refine congrArg₂ max (congrArg₂ (· + ·) ?_ ?_) rfl
  · refine (Cert.LibMatmulRows.matmul_zero_ix2 (φ₁ := .bf16) (φ₂ := .bf16) dot_S4096x128_S128x256_S4096x256_1_0_0_1_n_n rfl rfl
      (fun _ _ => rfl) (fun _ _ => rfl) (fun _ _ => rfl) (fun _ _ => rfl) none _ _ p j).trans ?_
    refine Finset.sum_congr rfl fun k _ => ?_
    show (x0 (ix2 p k) * broadcastTo S4096x128 x1 broadcasts_S4096x1_S4096x128 (ix2 p k)) * x2 (ix2 k j) = _
    rw [Cert.LibKeepdims.broadcastTo_a1_ab_apply x1 _ p k]
  · exact broadcastTo_1b_ab_apply x3 _ p j

/-! ## The pooling and classification body -/

/-- Entry (p, k) of the pooled features the body forms before its two products: the sum over the group's nodes of the
    scaled features, divided by 128, plus the bias. -/
theorem pooled_entry (h : Vec Ideal S128x128x128 .f32) (cn : Vec Ideal S128x128 .f32) (b2 : Vec Ideal S1x128 .f32)
    (p k : Fin 128) :
    addf (F := Ideal)
        (divf
          (multiReduction .add [1] S128x128
            (mulf h (broadcastTo S128x128x128 (shapeCast S128x128x1 cn shapeCasts_S128x128_S128x128x1)
              broadcasts_S128x128x1_S128x128x128))
            0x00000000#32 reduces_S128x128x128_S128x128 (.inl rfl) rfl)
          (broadcast S128x128 (Scalar.ofBits (F := Ideal) .f32 0x43000000#32)))
        (broadcastTo S128x128 b2 broadcasts_S1x128_S128x128) (ix2 p k)
      = Ideal.div (∑ l : Fin 128, h (ix3 p l k) * cn (ix2 p l)) Cert.Spec.c128 + b2 (ix2 (0 : Fin 1) k) := by
  show Ideal.div
        (multiReduction (F := Ideal) .add [1] S128x128
          (mulf h (broadcastTo S128x128x128 (shapeCast S128x128x1 cn shapeCasts_S128x128_S128x128x1)
            broadcasts_S128x128x1_S128x128x128))
          0x00000000#32 reduces_S128x128x128_S128x128 (.inl rfl) rfl (ix2 p k))
        (Ideal.ofBits .f32 0x43000000#32)
      + broadcastTo S128x128 b2 broadcasts_S1x128_S128x128 (ix2 p k) = _
  refine congrArg₂ (· + ·) (congrArg (Ideal.div · Cert.Spec.c128) ?_) (broadcastTo_1b_ab_apply b2 _ p k)
  refine (Ideal.multiReduction_add_single _ _ _ _ _ (ix2 p k)).trans ?_
  refine Finset.sum_congr rfl fun (l : Fin 128) _ => ?_
  rw [Cert.LibAxis.lift_axis1_of3 reduces_S128x128x128_S128x128 p k l]
  show h (ix3 p l k)
      * broadcastTo S128x128x128 (shapeCast S128x128x1 cn shapeCasts_S128x128_S128x128x1)
          broadcasts_S128x128x1_S128x128x128 (ix3 p l k) = _
  exact congrArg (h (ix3 p l k) * ·)
    ((broadcastTo_ab1_abn_apply _ broadcasts_S128x128x1_S128x128x128 p l k).trans
      (shapeCast_ab_ab1_apply cn shapeCasts_S128x128_S128x128x1 p l (0 : Fin 1)))

/-- Entry (p, j) of the logits block: the pooled features against the first classifier half, the organism row against
    the second, plus the bias. -/
theorem pool_classify_at (h : Vec Ideal S128x128x128 .f32) (cn : Vec Ideal S128x128 .f32) (b2 : Vec Ideal S1x128 .f32)
    (o : Vec Ideal S128x128 .f32) (w1 w2 : Vec Ideal S128x6 .f32) (bc : Vec Ideal S1x6 .f32) (p : Fin 128) (j : Fin 6) :
    k2_pay1 (F := Ideal) h cn b2 o w1 w2 bc (ix2 p j)
      = ((∑ k : Fin 128, (Ideal.div (∑ l : Fin 128, h (ix3 p l k) * cn (ix2 p l)) Cert.Spec.c128
              + b2 (ix2 (0 : Fin 1) k)) * w1 (ix2 k j))
          + (∑ k : Fin 128, o (ix2 p k) * w2 (ix2 k j))) + bc (ix2 (0 : Fin 1) j) := by
  show (matmul dot_S128x128_S128x6_S128x6_1_0_0_1_n_n none
          (truncf (F := Ideal) .bf16
            (addf
              (divf
                (multiReduction .add [1] S128x128
                  (mulf (shapeCast S128x128x128 h shapeCasts_S128x128x128_S128x128x128)
                    (broadcastTo S128x128x128
                      (shapeCast S128x128x1 (shapeCast S128x128 cn shapeCasts_S128x128_S128x128) shapeCasts_S128x128_S128x128x1)
                      broadcasts_S128x128x1_S128x128x128))
                  0x00000000#32 reduces_S128x128x128_S128x128 (.inl rfl) rfl)
                (broadcast S128x128 (Scalar.ofBits (F := Ideal) .f32 0x43000000#32)))
              (broadcastTo S128x128 (shapeCast S1x128 b2 shapeCasts_S1x128_S1x128) broadcasts_S1x128_S128x128))
            bitsLt_bf16_f32)
          (truncf (F := Ideal) .bf16 (shapeCast S128x6 w1 shapeCasts_S128x6_S128x6) bitsLt_bf16_f32)
          (constant S128x6 .f32 0x00000000#32) (ix2 p j)
        + matmul dot_S128x128_S128x6_S128x6_1_0_0_1_n_n none
          (truncf (F := Ideal) .bf16 (shapeCast S128x128 o shapeCasts_S128x128_S128x128) bitsLt_bf16_f32)
          (truncf (F := Ideal) .bf16 (shapeCast S128x6 w2 shapeCasts_S128x6_S128x6) bitsLt_bf16_f32)
          (constant S128x6 .f32 0x00000000#32) (ix2 p j))
      + broadcastTo S128x6 (shapeCast S1x6 bc shapeCasts_S1x6_S1x6) broadcasts_S1x6_S128x6 (ix2 p j) = _
  simp only [shapeCast_self]
  refine congrArg₂ (· + ·) (congrArg₂ (· + ·) ?_ ?_) (broadcastTo_1b_ab_apply bc _ p j)
  · refine (Cert.LibMatmulRows.matmul_zero_ix2 (φ₁ := .bf16) (φ₂ := .bf16) dot_S128x128_S128x6_S128x6_1_0_0_1_n_n rfl rfl
      (fun _ _ => rfl) (fun _ _ => rfl) (fun _ _ => rfl) (fun _ _ => rfl) none _ _ p j).trans ?_
    exact Finset.sum_congr rfl fun k _ => congrArg₂ (· * ·) (pooled_entry h cn b2 p k) rfl
  · exact Cert.LibMatmulRows.matmul_zero_ix2 (φ₁ := .bf16) (φ₂ := .bf16) dot_S128x128_S128x6_S128x6_1_0_0_1_n_n rfl rfl
      (fun _ _ => rfl) (fun _ _ => rfl) (fun _ _ => rfl) (fun _ _ => rfl) none
      (truncf (F := Ideal) .bf16 o bitsLt_bf16_f32) (truncf (F := Ideal) .bf16 w2 bitsLt_bf16_f32) p j

end Cert.KernelIdeal.BodyValues

end
-- ==== Proof.RefValues.lean ====
/-
  The reference program's stages, read at one entry, are the specification's formulas at the ideal (extended-real)
  values.

  The hidden matrix of the reference is max((A ⊙ c) · W₁ + b₁, 0) entry by entry, where A is the first aggregation
  (kept as an opaque array) and c the per-node scale; the second projection is (H · W₂) ⊙ c'; and the logits are the
  pooled features and the organism rows (kept opaque), each against its half of the classifier matrix, plus the bias.
  Two facts carry the last identification: a sum over the 256 joined columns is the sum over the first 128 plus the
  sum over the last 128, and the mean over 128 extended reals of aₗ + r, for a real r, is the mean of the aₗ plus r
  (a nonnegative real factor distributes over any sum of extended reals, so no finiteness of the aₗ is needed).
-/
import proofs.«179322_j24756191494756_2_alg».proof.Proof.RefRead
import proofs.«179322_j24756191494756_2_alg».proof.Proof.Spec

noncomputable section

namespace Cert.ReferenceIdeal.RefValues

open Cert.ReferenceIdeal Cert.ReferenceIdeal.ReadP Idealize.ShloMosaic Idealize.ShloMosaic.ValueIdx

variable (x0 : (⟨S262144x128, .f32⟩ : BufTy).Contents (Elt Ideal)) (x1 : (⟨S128x256, .f32⟩ : BufTy).Contents (Elt Ideal))
  (x2 : (⟨S256, .f32⟩ : BufTy).Contents (Elt Ideal)) (x3 : (⟨S256x128, .f32⟩ : BufTy).Contents (Elt Ideal))
  (x4 : (⟨S128, .f32⟩ : BufTy).Contents (Elt Ideal)) (x5 : (⟨S4x128, .f32⟩ : BufTy).Contents (Elt Ideal))
  (x6 : (⟨S256x6, .f32⟩ : BufTy).Contents (Elt Ideal)) (x7 : (⟨S6, .f32⟩ : BufTy).Contents (Elt Ideal))
  (x8 x9 : (⟨S2097152, .i32⟩ : BufTy).Contents (Elt Ideal)) (x10 : (⟨S2048, .i32⟩ : BufTy).Contents (Elt Ideal))

/-- Entry (n, d) of the reference's second projection: the row of the hidden matrix against the column of W₂, times
    the node's scale. -/
theorem proj2_eq (n : Fin 262144) (d : Fin 128) :
    val_main_v41 (F := Ideal) x0 x1 x2 x3 x8 x9 (ix2 n d)
      = Cert.Spec.proj2 (val_main_v37 (F := Ideal) x0 x1 x2 x8 x9) x3 (val_main_v11 (F := Ideal) x8) n d := by
  have hl : ∀ k : Fin 256, lidx_main_v38 (ix2 n d) k = ix2 n k := fun k => funext fun a => by
    match a with
    | ⟨0, _⟩ => rfl
    | ⟨1, _⟩ => rfl
  have hr : ∀ k : Fin 256, ridx_main_v38 (ix2 n d) k = ix2 k d := fun k => funext fun a => by
    match a with
    | ⟨0, _⟩ => rfl
    | ⟨1, _⟩ => rfl
  have hc : idx_main_v39 (idx_main_v40 (ix2 n d)) = ix1 n := funext fun a => by
    match a with
    | ⟨0, _⟩ => rfl
  rw [val_main_v41_apply, val_main_v38_apply, val_main_v40_apply, val_main_v39_apply, hc]
  simp only [hl, hr]
  rfl

/-- Entry (n, j) of the reference's hidden matrix: the scaled row of the first aggregation against the column of W₁,
    plus the bias, cut at the zero word. -/
theorem hidden_eq (n : Fin 262144) (j : Fin 256) :
    val_main_v37 (F := Ideal) x0 x1 x2 x8 x9 (ix2 n j)
      = Cert.Spec.hidden (val_main_v29 (F := Ideal) x0 x8 x9) (val_main_v16 (F := Ideal) x9) x1 x2 n j := by
  have hl : ∀ k : Fin 128, lidx_main_v33 (ix2 n j) k = ix2 n k := fun k => funext fun a => by
    match a with
    | ⟨0, _⟩ => rfl
    | ⟨1, _⟩ => rfl
  have hr : ∀ k : Fin 128, ridx_main_v33 (ix2 n j) k = ix2 k j := fun k => funext fun a => by
    match a with
    | ⟨0, _⟩ => rfl
    | ⟨1, _⟩ => rfl
  have hc : ∀ k : Fin 128, idx_main_v30 (idx_main_v31 (ix2 n k)) = ix1 n := fun k => funext fun a => by
    match a with
    | ⟨0, _⟩ => rfl
  have hb : idx_main_v34 (idx_main_v35 (ix2 n j)) = ix1 j := funext fun a => by
    match a with
    | ⟨0, _⟩ => rfl
  have hterm : ∀ k : Fin 128,
      val_main_v32 (F := Ideal) x0 x8 x9 (lidx_main_v33 (ix2 n j) k) * x1 (ridx_main_v33 (ix2 n j) k)
        = (val_main_v29 (F := Ideal) x0 x8 x9 (ix2 n k) * val_main_v16 (F := Ideal) x9 (ix1 n)) * x1 (ix2 k j) :=
    fun k => by
      rw [hl, hr, val_main_v32_apply, val_main_v31_apply, val_main_v30_apply, hc, Ideal.mulf_def]
  rw [val_main_v37_apply, val_main_v36_apply, val_main_v33_apply, val_main_v35_apply, val_main_v34_apply, hb,
    val_main_call2_v0_apply, val_main_call2_cst_apply, Finset.sum_congr rfl fun k _ => hterm k,
    Ideal.maximumf_def, Ideal.addf_def, Ideal.ofBits_def, Cert.Spec.hidden]

/-! ### Two facts over abstract data -/

/-- A sum over the 256 joined columns is the sum over the upper half plus the sum over the lower half. -/
theorem sum_lo_hi {M : Type*} [AddCommMonoid M] (f : Fin 256 → M) :
    ∑ k : Fin 256, f k = ∑ k : Fin 128, f (Cert.Spec.lo k) + ∑ k : Fin 128, f (Cert.Spec.hi k) := by
  rw [show (∑ k : Fin 256, f k) = ∑ k : Fin (128 + 128), f k from rfl, Fin.sum_univ_add]
  rfl

/-- The float word of `128.0` is the real `128`. -/
theorem c128_eq : Cert.Spec.c128 = ((128 : ℝ) : EReal) := by
  simp [Cert.Spec.c128, Ideal.ofBits, Ideal.ieee, -EReal.coe_mul]; norm_num

/-- The mean of `aₗ + r` over 128 extended reals `aₗ`, for a real `r`, is the mean of the `aₗ` plus `r`: the sum is
    `∑ aₗ + 128 • r` in the additive monoid, the quotient by the real `128` is the product with the real `1/128`, and a
    nonnegative real factor distributes over a sum of any two extended reals. -/
theorem mean_add_real (a : Fin 128 → EReal) (r : ℝ) :
    Ideal.div (∑ l : Fin 128, (a l + (r : EReal))) Cert.Spec.c128
      = Ideal.div (∑ l : Fin 128, a l) Cert.Spec.c128 + (r : EReal) := by
  have h128 : (128 : ℝ) ≠ 0 := by norm_num
  have hpos : (0 : EReal) ≤ ((1 / 128 : ℝ) : EReal) := by exact_mod_cast (by norm_num : (0 : ℝ) ≤ 1 / 128)
  rw [c128_eq, Ideal.div_coe h128, Ideal.div_coe h128, Finset.sum_add_distrib, Finset.sum_const, Finset.card_univ,
    Fintype.card_fin, EReal.right_distrib_of_nonneg_of_ne_top hpos (EReal.coe_ne_top _), ← EReal.coe_nsmul,
    ← EReal.coe_mul]
  congr 2
  simp
  ring

/-! ### The pooled features and the logits -/

/-- Entry (b, k) of the reference's pooled features: the sum from the zero word over group `b`'s 128 nodes of the
    scaled second aggregation plus the (real) bias, divided by the float `128`. -/
theorem pooled_eq (hb2 : ∀ k : Fin 128, ∃ r : ℝ, x4 (ix1 k) = (r : EReal)) (b : Fin 2048) (k : Fin 128) :
    val_main_v61 (F := Ideal) x0 x1 x2 x3 x4 x8 x9 (ix2 b k)
      = Cert.Spec.pooled (val_main_v51 (F := Ideal) x0 x1 x2 x3 x8 x9) (val_main_v16 (F := Ideal) x9) x4 b k := by
  obtain ⟨r, hr⟩ := hb2 k
  have h3 : ∀ l : Fin 128, idx_main_v59 (ix2 b k) l = ix3 b l k := fun l => funext fun a => by
    match a with
    | ⟨0, _⟩ => rfl
    | ⟨1, _⟩ => rfl
    | ⟨2, _⟩ => rfl
  have h2 : ∀ l : Fin 128, idx_main_v58 (ix3 b l k) = ix2 (Cert.Spec.node b l) k := fun l => funext fun a => by
    match a with
    | ⟨0, _⟩ =>
      exact Fin.ext (by
        show ((b.val * 128 + l.val) * 128 + k.val) / 128 = b.val * 128 + l.val
        have := k.isLt; omega)
    | ⟨1, _⟩ =>
      exact Fin.ext (by
        show ((b.val * 128 + l.val) * 128 + k.val) % 128 = k.val
        have := k.isLt; omega)
  have hc : ∀ n : Fin 262144, idx_main_v52 (idx_main_v53 (ix2 n k)) = ix1 n := fun n => funext fun a => by
    match a with
    | ⟨0, _⟩ => rfl
  have hbias : ∀ n : Fin 262144, idx_main_v55 (idx_main_v56 (ix2 n k)) = ix1 k := fun n => funext fun a => by
    match a with
    | ⟨0, _⟩ => rfl
  have hterm : ∀ l : Fin 128,
      val_main_v58 (F := Ideal) x0 x1 x2 x3 x4 x8 x9 (idx_main_v59 (ix2 b k) l)
        = val_main_v51 (F := Ideal) x0 x1 x2 x3 x8 x9 (ix2 (Cert.Spec.node b l) k)
            * val_main_v16 (F := Ideal) x9 (ix1 (Cert.Spec.node b l)) + (r : EReal) :=
    fun l => by
      rw [h3, val_main_v58_apply, h2, val_main_v57_apply, val_main_v54_apply, val_main_v53_apply, val_main_v52_apply,
        hc, val_main_v56_apply, val_main_v55_apply, hbias, hr, Ideal.addf_def, Ideal.mulf_def]
  rw [val_main_v61_apply, val_main_v59_apply, val_main_v60_apply, val_main_cst_14_apply, val_main_cst_13_apply,
    Finset.sum_congr rfl fun l _ => hterm l, Ideal.hostDivf_def, Ideal.ofBits_def, Ideal.ofBits_def,
    Ideal.ofBits_zero_f32, zero_add, Cert.Spec.pooled, hr]
  exact mean_add_real _ r

/-- Entry (b, j) of the reference's logits: the joined row (pooled features, then the organism row) against the
    classifier matrix, plus the bias; the sum over the 256 joined columns splits at 128. -/
theorem logits_eq (hb2 : ∀ k : Fin 128, ∃ r : ℝ, x4 (ix1 k) = (r : EReal)) (b : Fin 2048) (j : Fin 6) :
    val_main_v73 (F := Ideal) x0 x1 x2 x3 x4 x5 x6 x7 x8 x9 x10 (ix2 b j)
      = Cert.Spec.logits
          (Cert.Spec.pooled (val_main_v51 (F := Ideal) x0 x1 x2 x3 x8 x9) (val_main_v16 (F := Ideal) x9) x4)
          (val_main_v68 (F := Ideal) x5 x10) x6 x7 b j := by
  have hl : ∀ k : Fin 256, lidx_main_v70 (ix2 b j) k = ix2 b k := fun k => funext fun a => by
    match a with
    | ⟨0, _⟩ => rfl
    | ⟨1, _⟩ => rfl
  have hr : ∀ k : Fin 256, ridx_main_v70 (ix2 b j) k = ix2 k j := fun k => funext fun a => by
    match a with
    | ⟨0, _⟩ => rfl
    | ⟨1, _⟩ => rfl
  have hbias : idx_main_v71 (idx_main_v72 (ix2 b j)) = ix1 j := funext fun a => by
    match a with
    | ⟨0, _⟩ => rfl
  have hlo : ∀ k : Fin 128, val_main_v69 (F := Ideal) x0 x1 x2 x3 x4 x5 x8 x9 x10 (ix2 b (Cert.Spec.lo k))
      = val_main_v61 (F := Ideal) x0 x1 x2 x3 x4 x8 x9 (ix2 b k) := fun k => by
    unfold val_main_v69
    exact concatenate_pair_apply_left (t := S2048x256) (s₁ := S2048x128) (s₂ := S2048x128) 1 _ _
      Facts₀.concatenates_S2048x128_S2048x128_S2048x256_d1 (ix2 b (Cert.Spec.lo k)) rfl
      (ix2 b k) (fun a => by
        match a with
        | ⟨0, _⟩ => rfl
        | ⟨1, _⟩ => rfl)
  have hhi : ∀ k : Fin 128, val_main_v69 (F := Ideal) x0 x1 x2 x3 x4 x5 x8 x9 x10 (ix2 b (Cert.Spec.hi k))
      = val_main_v68 (F := Ideal) x5 x10 (ix2 b k) := fun k => by
    unfold val_main_v69
    exact concatenate_pair_apply_right (t := S2048x256) (s₁ := S2048x128) (s₂ := S2048x128) 1 _ _
      Facts₀.concatenates_S2048x128_S2048x128_S2048x256_d1 (ix2 b (Cert.Spec.hi k)) rfl rfl
      (ix2 b k) (fun a ha => by
        match a with
        | ⟨0, _⟩ => rfl
        | ⟨1, _⟩ => exact absurd rfl ha)
      (by show k.val + 128 = 128 + k.val; omega)
  have hterm : ∀ k : Fin 256,
      val_main_v69 (F := Ideal) x0 x1 x2 x3 x4 x5 x8 x9 x10 (lidx_main_v70 (ix2 b j) k) * x6 (ridx_main_v70 (ix2 b j) k)
        = val_main_v69 (F := Ideal) x0 x1 x2 x3 x4 x5 x8 x9 x10 (ix2 b k) * x6 (ix2 k j) := fun k => by
    rw [hl, hr]
  rw [val_main_v73_apply, val_main_v70_apply, val_main_v72_apply, val_main_v71_apply, hbias,
    Finset.sum_congr rfl fun k _ => hterm k, sum_lo_hi, Ideal.addf_def, Cert.Spec.logits]
  refine congrArg₂ (· + ·) (congrArg₂ (· + ·) (Finset.sum_congr rfl fun k _ => ?_)
    (Finset.sum_congr rfl fun k _ => ?_)) rfl
  · rw [hlo, pooled_eq x0 x1 x2 x3 x4 x8 x9 hb2]
  · rw [hhi]

end Cert.ReferenceIdeal.RefValues

end
-- ==== Proof.Layouts.lean ====
/-
  Two re-layouts and two row cuts, read at coordinates.

  The 262144 nodes are 2048 groups of 128 consecutive nodes: node `l` of group `b` is row `b·128 + l`. A matrix
  [262144, 128] laid out again as [2048, 128, 128] holds at (b, l, k) what the matrix holds at (b·128 + l, k), and a
  vector [262144] laid out again as [2048, 128] holds at (b, l) what the vector holds at b·128 + l: in both cases the two
  indices have the same row-major position. The upper and lower halves of a [256, 6] matrix hold at (k, j) what the
  matrix holds at (k, j) and at (128 + k, j).
-/
import proofs.«179322_j24756191494756_2_alg».proof.Proof.Spec
import Idealize.ShloMosaic.Lib.Pipeline.Value
import Idealize.ShloMosaic.Lib.ValueIdx
import Idealize.ShloMosaic.Lib.ValueLayout

namespace Cert.Layouts

open Idealize.ShloMosaic Idealize.ShloMosaic.ValueIdx Cert.Spec

variable {α : Type}

/-- The node matrix as groups × nodes × features. -/
theorem groups3_apply (X : (⟨2, ![262144, 128]⟩ : Shape).Idx → α)
    (h : (⟨2, ![262144, 128]⟩ : Shape).ShapeCasts ⟨3, ![2048, 128, 128]⟩) (b : Fin 2048) (l k : Fin 128) :
    shapeCast ⟨3, ![2048, 128, 128]⟩ X h (ix3 b l k) = X (ix2 (node b l) k) :=
  shapeCast_apply X h _ _ (by
    rw [Shape.rowMajor_val_three, Shape.rowMajor_val_two]
    show (node b l).val * 128 + k.val = (b.val * 128 + l.val) * 128 + k.val
    rfl)

/-- The node vector as groups × nodes. -/
theorem groups2_apply (X : (⟨1, ![262144]⟩ : Shape).Idx → α)
    (h : (⟨1, ![262144]⟩ : Shape).ShapeCasts ⟨2, ![2048, 128]⟩) (b : Fin 2048) (l : Fin 128) :
    shapeCast ⟨2, ![2048, 128]⟩ X h (ix2 b l) = X (ix1 (node b l)) :=
  shapeCast_apply X h _ _ (by
    rw [Shape.rowMajor_val_two, Shape.rowMajor_val_one]
    show (node b l).val = b.val * 128 + l.val
    rfl)

/-- The upper half of the classifier matrix. -/
theorem upper_apply (X : (⟨2, ![256, 6]⟩ : Shape).Idx → α) (h : (⟨2, ![256, 6]⟩ : Shape).Slices ![0, 0] ⟨2, ![128, 6]⟩)
    (k : Fin 128) (j : Fin 6) : extractStridedSlice ⟨2, ![128, 6]⟩ ![0, 0] X h (ix2 k j) = X (ix2 (lo k) j) :=
  slice2_axis0_apply 0 X h k j (lo k) (Nat.zero_add _).symm

/-- The lower half of the classifier matrix. -/
theorem lower_apply (X : (⟨2, ![256, 6]⟩ : Shape).Idx → α) (h : (⟨2, ![256, 6]⟩ : Shape).Slices ![128, 0] ⟨2, ![128, 6]⟩)
    (k : Fin 128) (j : Fin 6) : extractStridedSlice ⟨2, ![128, 6]⟩ ![128, 0] X h (ix2 k j) = X (ix2 (hi k) j) :=
  slice2_axis0_apply 128 X h k j (hi k) rfl

end Cert.Layouts
-- ==== Proof.KernelValues.lean ====
/-
  What the idealized kernel program returns, as a function of its arguments.

  The buffers are followed from the launch to the return. Through the five stretches of host operations before the
  first kernel each buffer a later reader needs holds the reference's stage of the same arguments. The first kernel's
  output array is, entry by entry, `max((A ⊙ c) · W₁ + b₁, 0)` of the first aggregate `A` and the in-scale `c`: the
  reference's hidden matrix. The second kernel's output is `(H · W₂) ⊙ c'` of that matrix and the out-scale: the
  reference's scaled projection. The stretch between the second and the third kernel aggregates it along the edges and
  lays it out by groups; the third kernel's output is then, entry by entry, the logits of the specification, which the
  reference's last stage equals when the second bias is a vector of real numbers (the mean over a group then commutes
  with adding the bias).
-/
import proofs.«179322_j24756191494756_2_alg».proof.Proof.KernelRun
import proofs.«179322_j24756191494756_2_alg».proof.Proof.HostStages
import proofs.«179322_j24756191494756_2_alg».proof.Proof.Region0
import proofs.«179322_j24756191494756_2_alg».proof.Proof.Region1
import proofs.«179322_j24756191494756_2_alg».proof.Proof.Region2
import proofs.«179322_j24756191494756_2_alg».proof.Proof.BodyValues
import proofs.«179322_j24756191494756_2_alg».proof.Proof.RefValues
import proofs.«179322_j24756191494756_2_alg».proof.Proof.Layouts
import proofs.«179322_j24756191494756_2_alg».proof.Proof.LibKeepdims
import Idealize.ShloMosaic.Lib.ValueLayout

set_option maxRecDepth 16384

noncomputable section

namespace Cert.KernelIdeal.Values

open Cert.KernelIdeal Cert.KernelIdeal.Gen Cert.KernelIdeal.HostStages
open Idealize.ShloMosaic Idealize.ShloMosaic.TcCoe Idealize.SL.Sem Idealize.ShloMosaic.StableHlo Idealize.ShloMosaic.ValueIdx
open Cert.ReferenceIdeal.ReadP (val_main_v3 val_main_v6 val_main_v8 val_main_cst_3 val_main_v9 val_main_v11 val_main_v13 val_main_cst_6
  val_main_v14 val_main_v16 val_main_v29 val_main_v37 val_main_v41 val_main_v51 val_main_v68 val_main_v73)

variable (m : (ℓ : Loc nD τ sig) → Buf (Elt Ideal) ℓ) (ρ : Dev nD → PrngReg)

/-! ## The arguments as launched -/

abbrev a0 (c : Dev nD) : (⟨S262144x128, .f32⟩ : BufTy).Contents (Elt Ideal) := m ((c.tc : Thread nD τ).loc main_arg0)
abbrev a1 (c : Dev nD) : (⟨S128x256, .f32⟩ : BufTy).Contents (Elt Ideal) := m ((c.tc : Thread nD τ).loc main_arg1)
abbrev a2 (c : Dev nD) : (⟨S256, .f32⟩ : BufTy).Contents (Elt Ideal) := m ((c.tc : Thread nD τ).loc main_arg2)
abbrev a3 (c : Dev nD) : (⟨S256x128, .f32⟩ : BufTy).Contents (Elt Ideal) := m ((c.tc : Thread nD τ).loc main_arg3)
abbrev a4 (c : Dev nD) : (⟨S128, .f32⟩ : BufTy).Contents (Elt Ideal) := m ((c.tc : Thread nD τ).loc main_arg4)
abbrev a5 (c : Dev nD) : (⟨S4x128, .f32⟩ : BufTy).Contents (Elt Ideal) := m ((c.tc : Thread nD τ).loc main_arg5)
abbrev a6 (c : Dev nD) : (⟨S256x6, .f32⟩ : BufTy).Contents (Elt Ideal) := m ((c.tc : Thread nD τ).loc main_arg6)
abbrev a7 (c : Dev nD) : (⟨S6, .f32⟩ : BufTy).Contents (Elt Ideal) := m ((c.tc : Thread nD τ).loc main_arg7)
abbrev a8 (c : Dev nD) : (⟨S2097152, .i32⟩ : BufTy).Contents (Elt Ideal) := m ((c.tc : Thread nD τ).loc main_arg8)
abbrev a9 (c : Dev nD) : (⟨S2097152, .i32⟩ : BufTy).Contents (Elt Ideal) := m ((c.tc : Thread nD τ).loc main_arg9)
abbrev a10 (c : Dev nD) : (⟨S2048, .i32⟩ : BufTy).Contents (Elt Ideal) := m ((c.tc : Thread nD τ).loc main_arg10)

/-! ## After the first stretch -/

theorem v3_at1 (c : Dev nD) : W1 m ρ c (Proc.devRef .tc main_v3) = val_main_v3 (F := Ideal) (a8 m c) := s0_v3 (W0 m ρ c) (a8 m c) rfl
theorem v6_at1 (c : Dev nD) : W1 m ρ c (Proc.devRef .tc main_v6) = val_main_v6 (F := Ideal) (a9 m c) := s0_v6 (W0 m ρ c) (a9 m c) rfl
theorem v8_at1 (c : Dev nD) : W1 m ρ c (Proc.devRef .tc main_v8) = val_main_v8 (F := Ideal) (a8 m c) := s0_v8 (W0 m ρ c) (a8 m c) rfl
theorem cst3_at1 (c : Dev nD) : W1 m ρ c (Proc.devRef .tc main_cst_3) = val_main_cst_3 (F := Ideal) := s0_cst3 (W0 m ρ c)
theorem arg0_at1 (c : Dev nD) : W1 m ρ c (Proc.devRef .tc main_arg0) = (a0 m c) := (s0_arg0 (W0 m ρ c)).trans rfl
theorem arg1_at1 (c : Dev nD) : W1 m ρ c (Proc.devRef .tc main_arg1) = (a1 m c) := (s0_arg1 (W0 m ρ c)).trans rfl
theorem arg2_at1 (c : Dev nD) : W1 m ρ c (Proc.devRef .tc main_arg2) = (a2 m c) := (s0_arg2 (W0 m ρ c)).trans rfl
theorem arg3_at1 (c : Dev nD) : W1 m ρ c (Proc.devRef .tc main_arg3) = (a3 m c) := (s0_arg3 (W0 m ρ c)).trans rfl
theorem arg4_at1 (c : Dev nD) : W1 m ρ c (Proc.devRef .tc main_arg4) = (a4 m c) := (s0_arg4 (W0 m ρ c)).trans rfl
theorem arg5_at1 (c : Dev nD) : W1 m ρ c (Proc.devRef .tc main_arg5) = (a5 m c) := (s0_arg5 (W0 m ρ c)).trans rfl
theorem arg6_at1 (c : Dev nD) : W1 m ρ c (Proc.devRef .tc main_arg6) = (a6 m c) := (s0_arg6 (W0 m ρ c)).trans rfl
theorem arg7_at1 (c : Dev nD) : W1 m ρ c (Proc.devRef .tc main_arg7) = (a7 m c) := (s0_arg7 (W0 m ρ c)).trans rfl
theorem arg8_at1 (c : Dev nD) : W1 m ρ c (Proc.devRef .tc main_arg8) = (a8 m c) := (s0_arg8 (W0 m ρ c)).trans rfl
theorem arg9_at1 (c : Dev nD) : W1 m ρ c (Proc.devRef .tc main_arg9) = (a9 m c) := (s0_arg9 (W0 m ρ c)).trans rfl
theorem arg10_at1 (c : Dev nD) : W1 m ρ c (Proc.devRef .tc main_arg10) = (a10 m c) := (s0_arg10 (W0 m ρ c)).trans rfl

/-! ## After the first choice -/

theorem v9_at2 (c : Dev nD) : W2 m ρ c (Proc.devRef .tc main_v9) = val_main_v9 (F := Ideal) (a8 m c) :=
  s1_v9 (W1 m ρ c) (a8 m c) (v8_at1 m ρ c) (v3_at1 m ρ c) (cst3_at1 m ρ c)
theorem v6_at2 (c : Dev nD) : W2 m ρ c (Proc.devRef .tc main_v6) = val_main_v6 (F := Ideal) (a9 m c) := (s1_v6 (W1 m ρ c)).trans (v6_at1 m ρ c)
theorem arg0_at2 (c : Dev nD) : W2 m ρ c (Proc.devRef .tc main_arg0) = (a0 m c) := (s1_arg0 (W1 m ρ c)).trans (arg0_at1 m ρ c)
theorem arg1_at2 (c : Dev nD) : W2 m ρ c (Proc.devRef .tc main_arg1) = (a1 m c) := (s1_arg1 (W1 m ρ c)).trans (arg1_at1 m ρ c)
theorem arg2_at2 (c : Dev nD) : W2 m ρ c (Proc.devRef .tc main_arg2) = (a2 m c) := (s1_arg2 (W1 m ρ c)).trans (arg2_at1 m ρ c)
theorem arg3_at2 (c : Dev nD) : W2 m ρ c (Proc.devRef .tc main_arg3) = (a3 m c) := (s1_arg3 (W1 m ρ c)).trans (arg3_at1 m ρ c)
theorem arg4_at2 (c : Dev nD) : W2 m ρ c (Proc.devRef .tc main_arg4) = (a4 m c) := (s1_arg4 (W1 m ρ c)).trans (arg4_at1 m ρ c)
theorem arg5_at2 (c : Dev nD) : W2 m ρ c (Proc.devRef .tc main_arg5) = (a5 m c) := (s1_arg5 (W1 m ρ c)).trans (arg5_at1 m ρ c)
theorem arg6_at2 (c : Dev nD) : W2 m ρ c (Proc.devRef .tc main_arg6) = (a6 m c) := (s1_arg6 (W1 m ρ c)).trans (arg6_at1 m ρ c)
theorem arg7_at2 (c : Dev nD) : W2 m ρ c (Proc.devRef .tc main_arg7) = (a7 m c) := (s1_arg7 (W1 m ρ c)).trans (arg7_at1 m ρ c)
theorem arg8_at2 (c : Dev nD) : W2 m ρ c (Proc.devRef .tc main_arg8) = (a8 m c) := (s1_arg8 (W1 m ρ c)).trans (arg8_at1 m ρ c)
theorem arg9_at2 (c : Dev nD) : W2 m ρ c (Proc.devRef .tc main_arg9) = (a9 m c) := (s1_arg9 (W1 m ρ c)).trans (arg9_at1 m ρ c)
theorem arg10_at2 (c : Dev nD) : W2 m ρ c (Proc.devRef .tc main_arg10) = (a10 m c) := (s1_arg10 (W1 m ρ c)).trans (arg10_at1 m ρ c)

/-! ## After the out-scale -/

theorem v11_at3 (c : Dev nD) : W3 m ρ c (Proc.devRef .tc main_v11) = val_main_v11 (F := Ideal) (a8 m c) := s2_v11 (W2 m ρ c) (a8 m c) (v9_at2 m ρ c)
theorem v13_at3 (c : Dev nD) : W3 m ρ c (Proc.devRef .tc main_v13) = val_main_v13 (F := Ideal) (a9 m c) := s2_v13 (W2 m ρ c) (a9 m c) (v6_at2 m ρ c)
theorem cst6_at3 (c : Dev nD) : W3 m ρ c (Proc.devRef .tc main_cst_6) = val_main_cst_6 (F := Ideal) := s2_cst6 (W2 m ρ c)
theorem v6_at3 (c : Dev nD) : W3 m ρ c (Proc.devRef .tc main_v6) = val_main_v6 (F := Ideal) (a9 m c) := (s2_v6 (W2 m ρ c)).trans (v6_at2 m ρ c)
theorem arg0_at3 (c : Dev nD) : W3 m ρ c (Proc.devRef .tc main_arg0) = (a0 m c) := (s2_arg0 (W2 m ρ c)).trans (arg0_at2 m ρ c)
theorem arg1_at3 (c : Dev nD) : W3 m ρ c (Proc.devRef .tc main_arg1) = (a1 m c) := (s2_arg1 (W2 m ρ c)).trans (arg1_at2 m ρ c)
theorem arg2_at3 (c : Dev nD) : W3 m ρ c (Proc.devRef .tc main_arg2) = (a2 m c) := (s2_arg2 (W2 m ρ c)).trans (arg2_at2 m ρ c)
theorem arg3_at3 (c : Dev nD) : W3 m ρ c (Proc.devRef .tc main_arg3) = (a3 m c) := (s2_arg3 (W2 m ρ c)).trans (arg3_at2 m ρ c)
theorem arg4_at3 (c : Dev nD) : W3 m ρ c (Proc.devRef .tc main_arg4) = (a4 m c) := (s2_arg4 (W2 m ρ c)).trans (arg4_at2 m ρ c)
theorem arg5_at3 (c : Dev nD) : W3 m ρ c (Proc.devRef .tc main_arg5) = (a5 m c) := (s2_arg5 (W2 m ρ c)).trans (arg5_at2 m ρ c)
theorem arg6_at3 (c : Dev nD) : W3 m ρ c (Proc.devRef .tc main_arg6) = (a6 m c) := (s2_arg6 (W2 m ρ c)).trans (arg6_at2 m ρ c)
theorem arg7_at3 (c : Dev nD) : W3 m ρ c (Proc.devRef .tc main_arg7) = (a7 m c) := (s2_arg7 (W2 m ρ c)).trans (arg7_at2 m ρ c)
theorem arg8_at3 (c : Dev nD) : W3 m ρ c (Proc.devRef .tc main_arg8) = (a8 m c) := (s2_arg8 (W2 m ρ c)).trans (arg8_at2 m ρ c)
theorem arg9_at3 (c : Dev nD) : W3 m ρ c (Proc.devRef .tc main_arg9) = (a9 m c) := (s2_arg9 (W2 m ρ c)).trans (arg9_at2 m ρ c)
theorem arg10_at3 (c : Dev nD) : W3 m ρ c (Proc.devRef .tc main_arg10) = (a10 m c) := (s2_arg10 (W2 m ρ c)).trans (arg10_at2 m ρ c)

/-! ## After the second choice -/

theorem v14_at4 (c : Dev nD) : W4 m ρ c (Proc.devRef .tc main_v14) = val_main_v14 (F := Ideal) (a9 m c) :=
  s3_v14 (W3 m ρ c) (a9 m c) (v13_at3 m ρ c) (v6_at3 m ρ c) (cst6_at3 m ρ c)
theorem v11_at4 (c : Dev nD) : W4 m ρ c (Proc.devRef .tc main_v11) = val_main_v11 (F := Ideal) (a8 m c) := (s3_v11 (W3 m ρ c)).trans (v11_at3 m ρ c)
theorem arg0_at4 (c : Dev nD) : W4 m ρ c (Proc.devRef .tc main_arg0) = (a0 m c) := (s3_arg0 (W3 m ρ c)).trans (arg0_at3 m ρ c)
theorem arg1_at4 (c : Dev nD) : W4 m ρ c (Proc.devRef .tc main_arg1) = (a1 m c) := (s3_arg1 (W3 m ρ c)).trans (arg1_at3 m ρ c)
theorem arg2_at4 (c : Dev nD) : W4 m ρ c (Proc.devRef .tc main_arg2) = (a2 m c) := (s3_arg2 (W3 m ρ c)).trans (arg2_at3 m ρ c)
theorem arg3_at4 (c : Dev nD) : W4 m ρ c (Proc.devRef .tc main_arg3) = (a3 m c) := (s3_arg3 (W3 m ρ c)).trans (arg3_at3 m ρ c)
theorem arg4_at4 (c : Dev nD) : W4 m ρ c (Proc.devRef .tc main_arg4) = (a4 m c) := (s3_arg4 (W3 m ρ c)).trans (arg4_at3 m ρ c)
theorem arg5_at4 (c : Dev nD) : W4 m ρ c (Proc.devRef .tc main_arg5) = (a5 m c) := (s3_arg5 (W3 m ρ c)).trans (arg5_at3 m ρ c)
theorem arg6_at4 (c : Dev nD) : W4 m ρ c (Proc.devRef .tc main_arg6) = (a6 m c) := (s3_arg6 (W3 m ρ c)).trans (arg6_at3 m ρ c)
theorem arg7_at4 (c : Dev nD) : W4 m ρ c (Proc.devRef .tc main_arg7) = (a7 m c) := (s3_arg7 (W3 m ρ c)).trans (arg7_at3 m ρ c)
theorem arg8_at4 (c : Dev nD) : W4 m ρ c (Proc.devRef .tc main_arg8) = (a8 m c) := (s3_arg8 (W3 m ρ c)).trans (arg8_at3 m ρ c)
theorem arg9_at4 (c : Dev nD) : W4 m ρ c (Proc.devRef .tc main_arg9) = (a9 m c) := (s3_arg9 (W3 m ρ c)).trans (arg9_at3 m ρ c)
theorem arg10_at4 (c : Dev nD) : W4 m ρ c (Proc.devRef .tc main_arg10) = (a10 m c) := (s3_arg10 (W3 m ρ c)).trans (arg10_at3 m ρ c)

/-! ## Where the first kernel is entered -/

theorem cin_at5 (c : Dev nD) : W5 m ρ c (Proc.devRef .tc main_v16) = val_main_v16 (F := Ideal) (a9 m c) := s4_v16 (W4 m ρ c) (a9 m c) (v14_at4 m ρ c)
theorem agg1_at5 (c : Dev nD) : W5 m ρ c (Proc.devRef .tc main_v31) = val_main_v29 (F := Ideal) (a0 m c) (a8 m c) (a9 m c) :=
  s4_v31 (W4 m ρ c) (a0 m c) (a8 m c) (a9 m c) (arg0_at4 m ρ c) (arg8_at4 m ρ c) (arg9_at4 m ρ c) (v11_at4 m ρ c)
theorem cin2d_at5 (c : Dev nD) :
    W5 m ρ c (Proc.devRef .tc main_v32) = shapeCast S262144x1 (val_main_v16 (F := Ideal) (a9 m c)) shapeCasts_S262144_S262144x1 :=
  s4_v32 (W4 m ρ c) (a9 m c) (v14_at4 m ρ c)
theorem cout2d_at5 (c : Dev nD) :
    W5 m ρ c (Proc.devRef .tc main_v33) = shapeCast S262144x1 (val_main_v11 (F := Ideal) (a8 m c)) shapeCasts_S262144_S262144x1 :=
  s4_v33 (W4 m ρ c) (a8 m c) (v11_at4 m ρ c)
theorem b1row_at5 (c : Dev nD) : W5 m ρ c (Proc.devRef .tc main_v34) = shapeCast S1x256 (a2 m c) shapeCasts_S256_S1x256 :=
  s4_v34 (W4 m ρ c) (a2 m c) (arg2_at4 m ρ c)
theorem arg0_at5 (c : Dev nD) : W5 m ρ c (Proc.devRef .tc main_arg0) = (a0 m c) := (s4_arg0 (W4 m ρ c)).trans (arg0_at4 m ρ c)
theorem arg1_at5 (c : Dev nD) : W5 m ρ c (Proc.devRef .tc main_arg1) = (a1 m c) := (s4_arg1 (W4 m ρ c)).trans (arg1_at4 m ρ c)
theorem arg2_at5 (c : Dev nD) : W5 m ρ c (Proc.devRef .tc main_arg2) = (a2 m c) := (s4_arg2 (W4 m ρ c)).trans (arg2_at4 m ρ c)
theorem arg3_at5 (c : Dev nD) : W5 m ρ c (Proc.devRef .tc main_arg3) = (a3 m c) := (s4_arg3 (W4 m ρ c)).trans (arg3_at4 m ρ c)
theorem arg4_at5 (c : Dev nD) : W5 m ρ c (Proc.devRef .tc main_arg4) = (a4 m c) := (s4_arg4 (W4 m ρ c)).trans (arg4_at4 m ρ c)
theorem arg5_at5 (c : Dev nD) : W5 m ρ c (Proc.devRef .tc main_arg5) = (a5 m c) := (s4_arg5 (W4 m ρ c)).trans (arg5_at4 m ρ c)
theorem arg6_at5 (c : Dev nD) : W5 m ρ c (Proc.devRef .tc main_arg6) = (a6 m c) := (s4_arg6 (W4 m ρ c)).trans (arg6_at4 m ρ c)
theorem arg7_at5 (c : Dev nD) : W5 m ρ c (Proc.devRef .tc main_arg7) = (a7 m c) := (s4_arg7 (W4 m ρ c)).trans (arg7_at4 m ρ c)
theorem arg8_at5 (c : Dev nD) : W5 m ρ c (Proc.devRef .tc main_arg8) = (a8 m c) := (s4_arg8 (W4 m ρ c)).trans (arg8_at4 m ρ c)
theorem arg9_at5 (c : Dev nD) : W5 m ρ c (Proc.devRef .tc main_arg9) = (a9 m c) := (s4_arg9 (W4 m ρ c)).trans (arg9_at4 m ρ c)
theorem arg10_at5 (c : Dev nD) : W5 m ρ c (Proc.devRef .tc main_arg10) = (a10 m c) := (s4_arg10 (W4 m ρ c)).trans (arg10_at4 m ρ c)

/-! ## The first kernel's output: the reference's hidden matrix -/

theorem hidden_at6 (c : Dev nD) :
    W6 m ρ c (Proc.devRef .tc main_v35) = val_main_v37 (F := Ideal) (a0 m c) (a1 m c) (a2 m c) (a8 m c) (a9 m c) := by
  refine (W6_arr m ρ c 4).trans ?_
  refine (Region0.final (V5 m ρ) BodyValues.gconv1_at c).trans ?_
  funext i
  obtain ⟨n, j, rfl⟩ : ∃ (n : Fin 262144) (j : Fin 256), i = ix2 n j := ⟨i 0, i 1, eq_ix2 i⟩
  rw [Cert.ReferenceIdeal.RefValues.hidden_eq]
  have e31 : Region0.aggArr (V5 m ρ) c = val_main_v29 (F := Ideal) (a0 m c) (a8 m c) (a9 m c) := agg1_at5 m ρ c
  have e32 : Region0.scaleArr (V5 m ρ) c (ix2 n (0 : Fin 1)) = val_main_v16 (F := Ideal) (a9 m c) (ix1 n) := by
    rw [show Region0.scaleArr (V5 m ρ) c = shapeCast S262144x1 (val_main_v16 (F := Ideal) (a9 m c)) shapeCasts_S262144_S262144x1
      from cin2d_at5 m ρ c]
    exact Cert.LibKeepdims.shapeCast_a_a1_apply _ _ n 0
  have e1 : Region0.weightArr (V5 m ρ) c = (a1 m c) := arg1_at5 m ρ c
  have e34 : Region0.biasArr (V5 m ρ) c (ix2 (0 : Fin 1) j) = (a2 m c) (ix1 j) := by
    rw [show Region0.biasArr (V5 m ρ) c = shapeCast S1x256 (a2 m c) shapeCasts_S256_S1x256 from b1row_at5 m ρ c]
    exact shapeCast_a_1a_apply _ _ 0 j
  show max ((∑ k : Fin 128, (Region0.aggArr (V5 m ρ) c (ix2 n k) * Region0.scaleArr (V5 m ρ) c (ix2 n (0 : Fin 1)))
      * Region0.weightArr (V5 m ρ) c (ix2 k j)) + Region0.biasArr (V5 m ρ) c (ix2 (0 : Fin 1) j)) Cert.Spec.zeroF = _
  rw [e31, e32, e1, e34]
  rfl

/-! ## The second kernel's output: the reference's scaled projection -/

theorem proj_at7 (c : Dev nD) :
    W7 m ρ c (Proc.devRef .tc main_v36) = val_main_v41 (F := Ideal) (a0 m c) (a1 m c) (a2 m c) (a3 m c) (a8 m c) (a9 m c) := by
  refine (W7_arr m ρ c 3).trans ?_
  refine (Region1.final (V6 m ρ) BodyValues.gconv2_at c).trans ?_
  funext i
  obtain ⟨n, d, rfl⟩ : ∃ (n : Fin 262144) (d : Fin 128), i = ix2 n d := ⟨i 0, i 1, eq_ix2 i⟩
  rw [Cert.ReferenceIdeal.RefValues.proj2_eq]
  have eH : Region1.hiddenArr (V6 m ρ) c = val_main_v37 (F := Ideal) (a0 m c) (a1 m c) (a2 m c) (a8 m c) (a9 m c) := hidden_at6 m ρ c
  have eW : Region1.weightArr (V6 m ρ) c = (a3 m c) := (W6_of_ne m ρ c main_arg3 (by decide)).trans (arg3_at5 m ρ c)
  have eS : Region1.scaleArr (V6 m ρ) c (ix2 n (0 : Fin 1)) = val_main_v11 (F := Ideal) (a8 m c) (ix1 n) := by
    rw [show Region1.scaleArr (V6 m ρ) c = shapeCast S262144x1 (val_main_v11 (F := Ideal) (a8 m c)) shapeCasts_S262144_S262144x1
      from (W6_of_ne m ρ c main_v33 (by decide)).trans (cout2d_at5 m ρ c)]
    exact Cert.LibKeepdims.shapeCast_a_a1_apply _ _ n 0
  show (∑ k : Fin 256, Region1.hiddenArr (V6 m ρ) c (ix2 n k) * Region1.weightArr (V6 m ρ) c (ix2 k d))
      * Region1.scaleArr (V6 m ρ) c (ix2 n (0 : Fin 1)) = _
  rw [eH, eW, eS]
  rfl

/-! ## Where the third kernel is entered -/

theorem arg4_at7 (c : Dev nD) : W7 m ρ c (Proc.devRef .tc main_arg4) = (a4 m c) := ((W7_of_ne m ρ c main_arg4 (by decide)).trans (W6_of_ne m ρ c main_arg4 (by decide))).trans (arg4_at5 m ρ c)
theorem arg5_at7 (c : Dev nD) : W7 m ρ c (Proc.devRef .tc main_arg5) = (a5 m c) := ((W7_of_ne m ρ c main_arg5 (by decide)).trans (W6_of_ne m ρ c main_arg5 (by decide))).trans (arg5_at5 m ρ c)
theorem arg6_at7 (c : Dev nD) : W7 m ρ c (Proc.devRef .tc main_arg6) = (a6 m c) := ((W7_of_ne m ρ c main_arg6 (by decide)).trans (W6_of_ne m ρ c main_arg6 (by decide))).trans (arg6_at5 m ρ c)
theorem arg7_at7 (c : Dev nD) : W7 m ρ c (Proc.devRef .tc main_arg7) = (a7 m c) := ((W7_of_ne m ρ c main_arg7 (by decide)).trans (W6_of_ne m ρ c main_arg7 (by decide))).trans (arg7_at5 m ρ c)
theorem arg8_at7 (c : Dev nD) : W7 m ρ c (Proc.devRef .tc main_arg8) = (a8 m c) := ((W7_of_ne m ρ c main_arg8 (by decide)).trans (W6_of_ne m ρ c main_arg8 (by decide))).trans (arg8_at5 m ρ c)
theorem arg9_at7 (c : Dev nD) : W7 m ρ c (Proc.devRef .tc main_arg9) = (a9 m c) := ((W7_of_ne m ρ c main_arg9 (by decide)).trans (W6_of_ne m ρ c main_arg9 (by decide))).trans (arg9_at5 m ρ c)
theorem arg10_at7 (c : Dev nD) : W7 m ρ c (Proc.devRef .tc main_arg10) = (a10 m c) := ((W7_of_ne m ρ c main_arg10 (by decide)).trans (W6_of_ne m ρ c main_arg10 (by decide))).trans (arg10_at5 m ρ c)
theorem cin_at7 (c : Dev nD) : W7 m ρ c (Proc.devRef .tc main_v16) = val_main_v16 (F := Ideal) (a9 m c) := ((W7_of_ne m ρ c main_v16 (by decide)).trans (W6_of_ne m ρ c main_v16 (by decide))).trans (cin_at5 m ρ c)

theorem agg2_at8 (c : Dev nD) :
    W8 m ρ c (Proc.devRef .tc main_v48)
      = shapeCast S2048x128x128 (val_main_v51 (F := Ideal) (a0 m c) (a1 m c) (a2 m c) (a3 m c) (a8 m c) (a9 m c)) shapeCasts_S262144x128_S2048x128x128 :=
  h2_v48 (W7 m ρ c) (a0 m c) (a1 m c) (a2 m c) (a3 m c) (a8 m c) (a9 m c) (proj_at7 m ρ c) (arg8_at7 m ρ c) (arg9_at7 m ρ c)
theorem cin_at8 (c : Dev nD) :
    W8 m ρ c (Proc.devRef .tc main_v49) = shapeCast S2048x128 (val_main_v16 (F := Ideal) (a9 m c)) shapeCasts_S262144_S2048x128 :=
  h2_v49 (W7 m ρ c) (a9 m c) (cin_at7 m ρ c)
theorem org_at8 (c : Dev nD) : W8 m ρ c (Proc.devRef .tc main_v56) = val_main_v68 (F := Ideal) (a5 m c) (a10 m c) :=
  h2_v56 (W7 m ρ c) (a5 m c) (a10 m c) (arg5_at7 m ρ c) (arg10_at7 m ρ c)
theorem upper_at8 (c : Dev nD) : W8 m ρ c (Proc.devRef .tc main_v57) = extractStridedSlice S128x6 ![0, 0] (a6 m c) slices_S256x6_S128x6_0_0 :=
  h2_v57 (W7 m ρ c) (a6 m c) (arg6_at7 m ρ c)
theorem lower_at8 (c : Dev nD) : W8 m ρ c (Proc.devRef .tc main_v58) = extractStridedSlice S128x6 ![128, 0] (a6 m c) slices_S256x6_S128x6_128_0 :=
  h2_v58 (W7 m ρ c) (a6 m c) (arg6_at7 m ρ c)
theorem bias_at8 (c : Dev nD) : W8 m ρ c (Proc.devRef .tc main_v59) = shapeCast S1x6 (a7 m c) shapeCasts_S6_S1x6 :=
  h2_v59 (W7 m ρ c) (a7 m c) (arg7_at7 m ρ c)
theorem bias2_at8 (c : Dev nD) : W8 m ρ c (Proc.devRef .tc main_v60) = shapeCast S1x128 (a4 m c) shapeCasts_S128_S1x128 :=
  h2_v60 (W7 m ρ c) (a4 m c) (arg4_at7 m ρ c)

/-! ## The third kernel's output: the reference's logits -/

theorem logits_at9 (c : Dev nD) (hb2 : ∀ k : Fin 128, ∃ r : ℝ, (a4 m c) (ix1 k) = (r : EReal)) :
    W9 m ρ c (Proc.devRef .tc main_v61)
      = val_main_v73 (F := Ideal) (a0 m c) (a1 m c) (a2 m c) (a3 m c) (a4 m c) (a5 m c) (a6 m c) (a7 m c) (a8 m c) (a9 m c) (a10 m c) := by
  refine (W9_arr m ρ c 7).trans ?_
  refine (Region2.final (V8 m ρ) BodyValues.pool_classify_at c).trans ?_
  funext i
  obtain ⟨b, j, rfl⟩ : ∃ (b : Fin 2048) (j : Fin 6), i = ix2 b j := ⟨i 0, i 1, eq_ix2 i⟩
  rw [Cert.ReferenceIdeal.RefValues.logits_eq (a0 m c) (a1 m c) (a2 m c) (a3 m c) (a4 m c) (a5 m c) (a6 m c) (a7 m c) (a8 m c) (a9 m c) (a10 m c) hb2 b j]
  have eA : ∀ l k : Fin 128, Region2.aggArr (V8 m ρ) c (ix3 b l k)
      = val_main_v51 (F := Ideal) (a0 m c) (a1 m c) (a2 m c) (a3 m c) (a8 m c) (a9 m c) (ix2 (Cert.Spec.node b l) k) := fun l k => by
    rw [show Region2.aggArr (V8 m ρ) c = shapeCast S2048x128x128 (val_main_v51 (F := Ideal) (a0 m c) (a1 m c) (a2 m c) (a3 m c) (a8 m c) (a9 m c))
      shapeCasts_S262144x128_S2048x128x128 from agg2_at8 m ρ c]
    exact Cert.Layouts.groups3_apply _ _ b l k
  have eC : ∀ l : Fin 128, Region2.scaleArr (V8 m ρ) c (ix2 b l) = val_main_v16 (F := Ideal) (a9 m c) (ix1 (Cert.Spec.node b l)) := fun l => by
    rw [show Region2.scaleArr (V8 m ρ) c = shapeCast S2048x128 (val_main_v16 (F := Ideal) (a9 m c)) shapeCasts_S262144_S2048x128
      from cin_at8 m ρ c]
    exact Cert.Layouts.groups2_apply _ _ b l
  have eO : Region2.orgArr (V8 m ρ) c = val_main_v68 (F := Ideal) (a5 m c) (a10 m c) := org_at8 m ρ c
  have eU : ∀ k : Fin 128, Region2.upperArr (V8 m ρ) c (ix2 k j) = (a6 m c) (ix2 (Cert.Spec.lo k) j) := fun k => by
    rw [show Region2.upperArr (V8 m ρ) c = extractStridedSlice S128x6 ![0, 0] (a6 m c) slices_S256x6_S128x6_0_0 from upper_at8 m ρ c]
    exact Cert.Layouts.upper_apply _ _ k j
  have eL : ∀ k : Fin 128, Region2.lowerArr (V8 m ρ) c (ix2 k j) = (a6 m c) (ix2 (Cert.Spec.hi k) j) := fun k => by
    rw [show Region2.lowerArr (V8 m ρ) c = extractStridedSlice S128x6 ![128, 0] (a6 m c) slices_S256x6_S128x6_128_0 from lower_at8 m ρ c]
    exact Cert.Layouts.lower_apply _ _ k j
  have eB : Region2.biasArr (V8 m ρ) c (ix2 (0 : Fin 1) j) = (a7 m c) (ix1 j) := by
    rw [show Region2.biasArr (V8 m ρ) c = shapeCast S1x6 (a7 m c) shapeCasts_S6_S1x6 from bias_at8 m ρ c]
    exact shapeCast_a_1a_apply _ _ 0 j
  have eB2 : ∀ k : Fin 128, Region2.bias2Arr (V8 m ρ) c (ix2 (0 : Fin 1) k) = (a4 m c) (ix1 k) := fun k => by
    rw [show Region2.bias2Arr (V8 m ρ) c = shapeCast S1x128 (a4 m c) shapeCasts_S128_S1x128 from bias2_at8 m ρ c]
    exact shapeCast_a_1a_apply _ _ 0 k
  show Region2.entry (Region2.aggArr (V8 m ρ) c) (Region2.scaleArr (V8 m ρ) c) (Region2.orgArr (V8 m ρ) c) (Region2.upperArr (V8 m ρ) c)
      (Region2.lowerArr (V8 m ρ) c) (Region2.biasArr (V8 m ρ) c) (Region2.bias2Arr (V8 m ρ) c) b j = _
  unfold Region2.entry Cert.Spec.logits Cert.Spec.pooled
  refine congrArg₂ (· + ·) (congrArg₂ (· + ·) (Finset.sum_congr rfl fun k _ => ?_) (Finset.sum_congr rfl fun k _ => ?_)) eB
  · rw [eB2 k, eU k]
    refine congrArg (fun s => (Ideal.div s Cert.Spec.c128 + (a4 m c) (ix1 k)) * (a6 m c) (ix2 (Cert.Spec.lo k) j)) (Finset.sum_congr rfl fun l _ => ?_)
    rw [eA l k, eC l]
  · rw [eO, eL k]

/-! ## The run, with the result as the reference's last stage -/

/-- Every weakly fair execution of the idealized kernel program ends, without a fault, with the result at the
    reference's last stage of the arguments and every argument as launched, when the second bias is real. -/
theorem run (hb2 : ∀ (c : Dev nD) (k : Fin 128), ∃ r : ℝ, (a4 m c) (ix1 k) = (r : EReal)) :
    θ_run defs (onTc (τ := τ) (main (F := Ideal))) ⟨m, fun _ => 0, ρ⟩ (fun r => ∀ c : Dev nD,
      r.2.mem ((c.tc : Thread nD τ).loc main_v61)
        = val_main_v73 (F := Ideal) (a0 m c) (a1 m c) (a2 m c) (a3 m c) (a4 m c) (a5 m c) (a6 m c) (a7 m c) (a8 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (logits_at9 m ρ c (hb2 c)), (h c).2⟩) (Cert.KernelIdeal.Result.run_result m ρ)

end Cert.KernelIdeal.Values

end
-- ==== Proof.Finite.lean ====
/-
  The second layer's bias is a vector of real numbers.

  The precondition says, of every float argument, that each entry `x` satisfies `|x| < +∞`, all the conditions joined
  by `and` into one bit. On the extended reals `|x| = max(x, -x)` is `+∞` at both infinities, so the condition says
  that `x` is a real number. Here it is read off for the bias vector of 128 entries, the fifth argument.
-/
import proofs.«179322_j24756191494756_2_alg».proof.Pre_finite_inputs
import proofs.«179322_j24756191494756_2_alg».proof.Proof.Gen.Pre_finite_inputs
import Idealize.ShloMosaic.PureOps.Ideal
import Idealize.ShloMosaic.Lib.ReduceAll
import Idealize.ShloMosaic.Lib.Affine
import Idealize.ShloMosaic.Lib.ValueIdx

set_option maxRecDepth 16384

noncomputable section

namespace Cert.Finite

open Idealize.ShloMosaic Idealize.ShloMosaic.ValueIdx Cert.Pre_finite_inputs

instance : Subsingleton S_.Idx := ⟨fun a b => funext fun d => d.elim0⟩

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- Under the precondition every entry of the bias vector is a real number. -/
theorem bias_real (a0 : FVec Ideal S262144x128 .f32) (a1 : FVec Ideal S128x256 .f32) (a2 : FVec Ideal S256 .f32)
    (a3 : FVec Ideal S256x128 .f32) (a4 : FVec Ideal S128 .f32) (a5 : FVec Ideal S4x128 .f32) (a6 : FVec Ideal S256x6 .f32)
    (a7 : FVec Ideal S6 .f32) (a8 a9 : IVec S2097152 32) (a10 : IVec S2048 32)
    (h : fn (F := Ideal) a0 a1 a2 a3 a4 a5 a6 a7 a8 a9 a10 = fun _ => 1#1) (k : Fin 128) :
    ∃ r : ℝ, a4 (ix1 k) = (r : EReal) := by
  have h0 := congrFun h ix0
  dsimp only [fn, fn_part1, fn_part2] at h0
  have h33 := (IntOp.andi_eq_one.mp h0).1
  have h28 := (IntOp.andi_eq_one.mp h33).1
  have h23 := (IntOp.andi_eq_one.mp h28).1
  have h22 := (IntOp.andi_eq_one.mp h23).2
  have hk := Host.reduce_andi_all _ _ _ _ ix0 h22 (ix1 k)
  exact real_of_abs_lt_inf _ hk

end Cert.Finite

end
-- ==== Proof.lean ====
/-
  A graph-convolution classifier in three kernels against its plain reference, on the extended reals.

  Both programs count each node's out- and in-edges, form the scales `(d if d > 0 else 1)^(-1/2)`, aggregate the
  out-scaled node features along the edges, apply `max((· ⊙ c) W₁ + b₁, 0)`, project by `W₂`, scale, aggregate again,
  and classify the mean over each group of 128 nodes together with the group's organism row. The kernel program does
  the two projections and the pooling-and-classifying step in three kernels over row blocks, the reference in whole-array
  host operations; on the extended reals a block-wise product is the whole product's block, and a change of float format
  is the identity. Two steps are arranged differently. The reference adds the second bias to every node row before the
  mean, the third kernel after it: the mean of `aₗ + b` over 128 terms is the mean of the `aₗ` plus `b` whenever `b` is a real
  number, whatever extended reals the `aₗ` are, and the precondition makes the bias real. The reference multiplies the
  joined row (pooled features, organism row) by the whole classifier matrix, the kernel multiplies each part by its
  half and adds: a sum over 256 columns split at 128.

  The three frames are the generated ones (the reference's is its run with the result dropped); the idealization
  rewrote nothing, so there is nothing to preserve; the value claim pairs the kernel program's run, whose result is
  followed buffer by buffer to the reference's last stage of the same arguments, with the reference's run.
-/
import proofs.«179322_j24756191494756_2_alg».proof.Defs
import proofs.«179322_j24756191494756_2_alg».proof.Proof.Gen.Kernel
import proofs.«179322_j24756191494756_2_alg».proof.Proof.Gen.Kernel.Skeleton
import proofs.«179322_j24756191494756_2_alg».proof.Proof.Gen.Kernel.Launch
import proofs.«179322_j24756191494756_2_alg».proof.Proof.Gen.Kernel.Points
import proofs.«179322_j24756191494756_2_alg».proof.Proof.Gen.Kernel.Frame
import proofs.«179322_j24756191494756_2_alg».proof.Proof.Gen.KernelIdeal
import proofs.«179322_j24756191494756_2_alg».proof.Proof.Gen.KernelIdeal.Skeleton
import proofs.«179322_j24756191494756_2_alg».proof.Proof.Gen.KernelIdeal.Launch
import proofs.«179322_j24756191494756_2_alg».proof.Proof.Gen.KernelIdeal.Points
import proofs.«179322_j24756191494756_2_alg».proof.Proof.Gen.KernelIdeal.Frame
import proofs.«179322_j24756191494756_2_alg».proof.Proof.Gen.ReferenceIdeal
import proofs.«179322_j24756191494756_2_alg».proof.Proof.Gen.Pre_finite_inputs
import proofs.«179322_j24756191494756_2_alg».proof.Proof.RefRun
import proofs.«179322_j24756191494756_2_alg».proof.Proof.RefRead
import proofs.«179322_j24756191494756_2_alg».proof.Proof.KernelValues
import proofs.«179322_j24756191494756_2_alg».proof.Proof.Finite
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the reference's last stage of those arguments. -/
theorem algebraic : Cert.algebraic_KernelIdeal_ReferenceIdeal := by
  intro m ρ m' ρ' hpre hagree
  refine ⟨fun c => Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Values.run m ρ (fun c k => Cert.Finite.bias_real _ _ _ _ _ _ _ _ _ _ _ (hpre c) k), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.ReadP.val_main_v73_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
